-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x600000 : Shape := ⟨2, ![2, 600000]⟩
abbrev S64x256 : Shape := ⟨2, ![64, 256]⟩
abbrev S256 : Shape := ⟨1, ![256]⟩
abbrev S256x256 : Shape := ⟨2, ![256, 256]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x64 .f32) (main_arg1 : IVec S2x600000 32) (main_arg2 : FVec F S64x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S100000x64 : Shape := ⟨2, ![100000, 64]⟩
abbrev S2x600000 : Shape := ⟨2, ![2, 600000]⟩
abbrev S64x256 : Shape := ⟨2, ![64, 256]⟩
abbrev S256 : Shape := ⟨1, ![256]⟩
abbrev S256x256 : Shape := ⟨2, ![256, 256]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x256 : Shape := ⟨2, ![100000, 256]⟩
abbrev S5000x64 : Shape := ⟨2, ![5000, 64]⟩
abbrev S5000x256 : Shape := ⟨2, ![5000, 256]⟩
abbrev S600000x256 : Shape := ⟨2, ![600000, 256]⟩
abbrev S1x256 : Shape := ⟨2, ![1, 256]⟩

abbrev nBuf : Space → Nat
  | .hbm => 102
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x600000, .i32⟩
  | .hbm, ⟨2, _⟩ => ⟨S64x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000, .f32⟩
  | .hbm, ⟨47, _⟩ => ⟨S600000, .f32⟩
  | .hbm, ⟨48, _⟩ => ⟨S100000x256, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x256, .f32⟩
  | .hbm, ⟨58, _⟩ => ⟨S600000x1, .f32⟩
  | .hbm, ⟨59, _⟩ => ⟨S600000x256, .f32⟩
  | .hbm, ⟨60, _⟩ => ⟨S600000x256, .f32⟩
  | .hbm, ⟨61, _⟩ => ⟨S_, .f32⟩
  | .hbm, ⟨62, _⟩ => ⟨S100000x256, .f32⟩
  | .hbm, ⟨63, _⟩ => ⟨S600000x1, .i32⟩
  | .hbm, ⟨64, _⟩ => ⟨S100000x256, .f32⟩
  | .hbm, ⟨65, _⟩ => ⟨S100000x256, .f32⟩
  | .hbm, ⟨66, _⟩ => ⟨S100000x256, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x256, .f32⟩
  | .hbm, ⟨76, _⟩ => ⟨S600000x1, .f32⟩
  | .hbm, ⟨77, _⟩ => ⟨S600000x256, .f32⟩
  | .hbm, ⟨78, _⟩ => ⟨S600000x256, .f32⟩
  | .hbm, ⟨79, _⟩ => ⟨S_, .f32⟩
  | .hbm, ⟨80, _⟩ => ⟨S100000x256, .f32⟩
  | .hbm, ⟨81, _⟩ => ⟨S600000x1, .i32⟩
  | .hbm, ⟨82, _⟩ => ⟨S100000x256, .f32⟩
  | .hbm, ⟨83, _⟩ => ⟨S100000x256, .f32⟩
  | .hbm, ⟨84, _⟩ => ⟨S100000x256, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x256, .f32⟩
  | .hbm, ⟨94, _⟩ => ⟨S600000x1, .f32⟩
  | .hbm, ⟨95, _⟩ => ⟨S600000x256, .f32⟩
  | .hbm, ⟨96, _⟩ => ⟨S600000x256, .f32⟩
  | .hbm, ⟨97, _⟩ => ⟨S_, .f32⟩
  | .hbm, ⟨98, _⟩ => ⟨S100000x256, .f32⟩
  | .hbm, ⟨99, _⟩ => ⟨S600000x1, .i32⟩
  | .hbm, ⟨100, _⟩ => ⟨S100000x256, .f32⟩
  | .hbm, ⟨101, _⟩ => ⟨S100000x256, .f32⟩
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S256, .f32⟩
  | .local _ .vmem, ⟨28, _⟩ => ⟨S5000x256, .f32⟩
  | .local _ .vmem, ⟨29, _⟩ => ⟨S5000x256, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S5000x256_S5000x256_0_0 : ∀ a, (![0, 0] : Fin 2 → Nat) a + S5000x256.size a ≤ S5000x256.size a
  h_S5000x256 : 0 < S5000x256.numel
  bcast_S600000x1_S600000x256_0_1 : S600000x1.BroadcastsInDim S600000x256 (![0, 1] : Fin 2 → Fin S600000x256.rank)
  bcast_S_S100000x256 : S_.BroadcastsInDim S100000x256 (![] : Fin 0 → Fin S100000x256.rank)
  shapeCasts_S5000x256_S5000x256 : S5000x256.ShapeCasts S5000x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S5000x64_S64x256_S5000x256_1_0_0_1_n_n_wf : DotDims.WF S5000x64 S64x256 S5000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .f32 = 32 ∨ (Rect.block (s := S100000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S100000x256.size a
  hwx2_2 : ∀ i : grid2.Coords, EltTy.bits .f32 = 32 ∨ (Rect.block (s := S100000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S100000x256.size a
  hwx3_0 : ∀ i : grid3.Coords, EltTy.bits .f32 = 32 ∨ (Rect.block (s := S100000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256.size a ≤ S256.size a
  hwx3_1 : ∀ i : grid3.Coords, EltTy.bits .f32 = 32 ∨ (Rect.block (s := S256) S256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S100000x256.size a
  hwx3_2 : ∀ i : grid3.Coords, EltTy.bits .f32 = 32 ∨ (Rect.block (s := S100000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S100000x256.size a
  hwx4_0 : ∀ i : grid4.Coords, EltTy.bits .f32 = 32 ∨ (Rect.block (s := S100000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S100000x256.size a
  hwx4_2 : ∀ i : grid4.Coords, EltTy.bits .f32 = 32 ∨ (Rect.block (s := S100000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S100000x256.size a
  hwx5_0 : ∀ i : grid5.Coords, EltTy.bits .f32 = 32 ∨ (Rect.block (s := S100000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256.size a ≤ S256.size a
  hwx5_1 : ∀ i : grid5.Coords, EltTy.bits .f32 = 32 ∨ (Rect.block (s := S256) S256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x256.size a ≤ S100000x256.size a
  hwx5_2 : ∀ i : grid5.Coords, EltTy.bits .f32 = 32 ∨ (Rect.block (s := S100000x256) S5000x256.size (cc5_transform_2 i) (hinb5_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S5000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x600000 : Shape := ⟨2, ![2, 600000]⟩
abbrev S64x256 : Shape := ⟨2, ![64, 256]⟩
abbrev S256 : Shape := ⟨1, ![256]⟩
abbrev S256x256 : Shape := ⟨2, ![256, 256]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x256 : Shape := ⟨2, ![100000, 256]⟩
abbrev S600000x256 : Shape := ⟨2, ![600000, 256]⟩
abbrev S1x256 : Shape := ⟨2, ![1, 256]⟩

abbrev nBuf : Space → Nat
  | .hbm => 153
  | .vmem => 0
  | .smem => 0
  | _ => 0

abbrev hbmTy0_0 (i : Nat) : BufTy := match i % 128 with
  | 0 => ⟨S100000x64, .f32⟩
  | 1 => ⟨S2x600000, .i32⟩
  | 2 => ⟨S64x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S1x600000, .i32⟩
  | 9 => ⟨S600000, .i32⟩
  | 10 => ⟨S1x600000, .i32⟩
  | 11 => ⟨S600000, .i32⟩
  | 12 => ⟨S_, .f32⟩
  | 13 => ⟨S600000, .f32⟩
  | 14 => ⟨S_, .f32⟩
  | 15 => ⟨S100000, .f32⟩
  | 16 => ⟨S600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S100000x256, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x256, .f32⟩
  | 58 => ⟨S600000x1, .f32⟩
  | 59 => ⟨S600000x256, .f32⟩
  | 60 => ⟨S600000x256, .f32⟩
  | 61 => ⟨S_, .f32⟩
  | 62 => ⟨S100000x256, .f32⟩
  | 63 => ⟨S600000x1, .i32⟩
  | 64 => ⟨S100000x256, .f32⟩
  | 65 => ⟨S1x256, .f32⟩
  | 66 => ⟨S100000x256, .f32⟩
  | 67 => ⟨S100000x256, .f32⟩
  | 68 => ⟨S_, .f32⟩
  | 69 => ⟨S100000x256, .f32⟩
  | 70 => ⟨S100000x256, .i1⟩
  | 71 => ⟨S_, .f32⟩
  | 72 => ⟨S100000x256, .f32⟩
  | 73 => ⟨S100000x256, .i1⟩
  | 74 => ⟨S_, .f32⟩
  | 75 => ⟨S_, .f32⟩
  | 76 => ⟨S100000x256, .f32⟩
  | 77 => ⟨S100000x256, .f32⟩
  | 78 => ⟨S100000x256, .f32⟩
  | 79 => ⟨S_, .f32⟩
  | 80 => ⟨S100000x256, .f32⟩
  | 81 => ⟨S100000x256, .f32⟩
  | 82 => ⟨S100000x256, .f32⟩
  | 83 => ⟨S100000x256, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x256, .f32⟩
  | 93 => ⟨S600000x1, .f32⟩
  | 94 => ⟨S600000x256, .f32⟩
  | 95 => ⟨S600000x256, .f32⟩
  | 96 => ⟨S_, .f32⟩
  | 97 => ⟨S100000x256, .f32⟩
  | 98 => ⟨S600000x1, .i32⟩
  | 99 => ⟨S100000x256, .f32⟩
  | 100 => ⟨S1x256, .f32⟩
  | 101 => ⟨S100000x256, .f32⟩
  | 102 => ⟨S100000x256, .f32⟩
  | 103 => ⟨S_, .f32⟩
  | 104 => ⟨S100000x256, .f32⟩
  | 105 => ⟨S100000x256, .i1⟩
  | 106 => ⟨S_, .f32⟩
  | 107 => ⟨S100000x256, .f32⟩
  | 108 => ⟨S100000x256, .i1⟩
  | 109 => ⟨S_, .f32⟩
  | 110 => ⟨S_, .f32⟩
  | 111 => ⟨S100000x256, .f32⟩
  | 112 => ⟨S100000x256, .f32⟩
  | 113 => ⟨S100000x256, .f32⟩
  | 114 => ⟨S_, .f32⟩
  | 115 => ⟨S100000x256, .f32⟩
  | 116 => ⟨S100000x256, .f32⟩
  | 117 => ⟨S100000x256, .f32⟩
  | 118 => ⟨S100000x256, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x256, .f32⟩
  | _ => ⟨S100000x64, .f32⟩

abbrev hbmTy0_1 (i : Nat) : BufTy := match i % 128 with
  | 0 => ⟨S600000x1, .f32⟩
  | 1 => ⟨S600000x256, .f32⟩
  | 2 => ⟨S600000x256, .f32⟩
  | 3 => ⟨S_, .f32⟩
  | 4 => ⟨S100000x256, .f32⟩
  | 5 => ⟨S600000x1, .i32⟩
  | 6 => ⟨S100000x256, .f32⟩
  | 7 => ⟨S1x256, .f32⟩
  | 8 => ⟨S100000x256, .f32⟩
  | 9 => ⟨S100000x256, .f32⟩
  | 10 => ⟨S_, .f32⟩
  | 11 => ⟨S100000x256, .f32⟩
  | 12 => ⟨S100000x256, .i1⟩
  | 13 => ⟨S_, .f32⟩
  | 14 => ⟨S100000x256, .f32⟩
  | 15 => ⟨S100000x256, .i1⟩
  | 16 => ⟨S_, .f32⟩
  | 17 => ⟨S_, .f32⟩
  | 18 => ⟨S100000x256, .f32⟩
  | 19 => ⟨S100000x256, .f32⟩
  | 20 => ⟨S100000x256, .f32⟩
  | 21 => ⟨S_, .f32⟩
  | 22 => ⟨S100000x256, .f32⟩
  | 23 => ⟨S100000x256, .f32⟩
  | 24 => ⟨S100000x256, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_cst_1 : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_v4 : Ref sig .tc := ⟨.hbm, 77, rfl⟩
abbrev main_call1_v5 : Ref sig .tc := ⟨.hbm, 78, rfl⟩
abbrev main_call1_cst_2 : Ref sig .tc := ⟨.hbm, 79, rfl⟩
abbrev main_call1_v6 : Ref sig .tc := ⟨.hbm, 80, rfl⟩
abbrev main_call1_v7 : Ref sig .tc := ⟨.hbm, 81, rfl⟩
abbrev main_v46 : Ref sig .tc := ⟨.hbm, 82, rfl⟩
abbrev main_v47 : Ref sig .tc := ⟨.hbm, 83, rfl⟩
abbrev main_c_10 : Ref sig .tc := ⟨.hbm, 84, rfl⟩
abbrev main_v48 : Ref sig .tc := ⟨.hbm, 85, rfl⟩
abbrev main_v49 : Ref sig .tc := ⟨.hbm, 86, rfl⟩
abbrev main_c_11 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_cst_0 : Ref sig .tc := ⟨.hbm, 106, rfl⟩
abbrev main_call2_v2 : Ref sig .tc := ⟨.hbm, 107, rfl⟩
abbrev main_call2_v3 : Ref sig .tc := ⟨.hbm, 108, rfl⟩
abbrev main_call2_cst_1 : Ref sig .tc := ⟨.hbm, 109, rfl⟩
abbrev main_call2_call0_v0 : Ref sig .tc := ⟨.hbm, 110, rfl⟩
abbrev main_call2_call0_v1 : Ref sig .tc := ⟨.hbm, 111, rfl⟩
abbrev main_call2_v4 : Ref sig .tc := ⟨.hbm, 112, rfl⟩
abbrev main_call2_v5 : Ref sig .tc := ⟨.hbm, 113, rfl⟩
abbrev main_call2_cst_2 : Ref sig .tc := ⟨.hbm, 114, rfl⟩
abbrev main_call2_v6 : Ref sig .tc := ⟨.hbm, 115, rfl⟩
abbrev main_call2_v7 : Ref sig .tc := ⟨.hbm, 116, rfl⟩
abbrev main_v64 : Ref sig .tc := ⟨.hbm, 117, rfl⟩
abbrev main_v65 : Ref sig .tc := ⟨.hbm, 118, rfl⟩
abbrev main_c_13 : Ref sig .tc := ⟨.hbm, 119, rfl⟩
abbrev main_v66 : Ref sig .tc := ⟨.hbm, 120, rfl⟩
abbrev main_v67 : Ref sig .tc := ⟨.hbm, 121, rfl⟩
abbrev main_c_14 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_15 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_call3_cst : Ref sig .tc := ⟨.hbm, 138, rfl⟩
abbrev main_call3_v0 : Ref sig .tc := ⟨.hbm, 139, rfl⟩
abbrev main_call3_v1 : Ref sig .tc := ⟨.hbm, 140, rfl⟩
abbrev main_call3_cst_0 : Ref sig .tc := ⟨.hbm, 141, rfl⟩
abbrev main_call3_v2 : Ref sig .tc := ⟨.hbm, 142, rfl⟩
abbrev main_call3_v3 : Ref sig .tc := ⟨.hbm, 143, rfl⟩
abbrev main_call3_cst_1 : Ref sig .tc := ⟨.hbm, 144, rfl⟩
abbrev main_call3_call0_v0 : Ref sig .tc := ⟨.hbm, 145, rfl⟩
abbrev main_call3_call0_v1 : Ref sig .tc := ⟨.hbm, 146, rfl⟩
abbrev main_call3_v4 : Ref sig .tc := ⟨.hbm, 147, rfl⟩
abbrev main_call3_v5 : Ref sig .tc := ⟨.hbm, 148, rfl⟩
abbrev main_call3_cst_2 : Ref sig .tc := ⟨.hbm, 149, rfl⟩
abbrev main_call3_v6 : Ref sig .tc := ⟨.hbm, 150, rfl⟩
abbrev main_call3_v7 : Ref sig .tc := ⟨.hbm, 151, rfl⟩
abbrev main_v82 : Ref sig .tc := ⟨.hbm, 152, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x256_0_1 : S600000x1.BroadcastsInDim S600000x256 (![0, 1] : Fin 2 → Fin S600000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S100000x64_S64x256_S100000x256_1_0_0_1_n_n_wf : DotDims.WF S100000x64 S64x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x256_S100000x256_1_0_0_1_n_n_wf : DotDims.WF S100000x256 S256x256 S100000x256 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KRun.lean ====
/-
  The kernel program's run, with its result.

  The program is twelve segments: host stretches and six tiled regions.  The launch of the whole chain from any
  memory with zero counters ends, for every weakly fair execution, in a state whose unscoped buffers hold the last
  boundary's contents.  Read at the arguments this is the frame; read also at the last region's output it names the
  program's result: what the fold through the twelve segments leaves there.
-/
import proofs.«143275_j523986010649_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the last region's output
    array at the last boundary's contents and the argument arrays as launched. -/
theorem run_result : θ_run defs (onTc (τ := τ) (main (F := F))) ⟨m, fun _ => 0, ρ⟩ (fun r => ∀ c : Dev nD,
      r.2.mem ((c.tc : Thread nD τ).loc main_v73) = W12 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v73 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Val

end
-- ==== Proof.KTab.lean ====
/- A table, no argument: each definition is the printed operations of one stretch, one let-line per operation, in the printed order. -/
import proofs.«143275_j523986010649_1_alg».proof.Proof.Gen.KernelIdeal

noncomputable section

namespace Cert.KernelIdeal.Tab

open Idealize.ShloMosaic Cert.KernelIdeal Cert.KernelIdeal.Facts₀ Cert.KernelIdeal.Facts

variable {F : FTy → Type} [FloatOps F]

/-- The source node of every edge: row 0 of the edge list. -/
def src (ei : (⟨S2x600000, .i32⟩ : BufTy).Contents (Elt F)) :
    (⟨S600000, .i32⟩ : BufTy).Contents (Elt F) :=
  let t_v0 : (⟨S1x600000, .i32⟩ : BufTy).Contents (Elt F) := (((extractStridedSlice S1x600000 ![0, 0] · slices_S2x600000_S1x600000_0_0) : (⟨S2x600000, .i32⟩ : BufTy).Contents (Elt F) → (⟨S1x600000, .i32⟩ : BufTy).Contents (Elt F))) ei
  let t_v1 : (⟨S600000, .i32⟩ : BufTy).Contents (Elt F) := shapeCast S600000 t_v0 shapeCasts_S1x600000_S600000
  t_v1

/-- The target node of every edge: row 1 of the edge list. -/
def dst (ei : (⟨S2x600000, .i32⟩ : BufTy).Contents (Elt F)) :
    (⟨S600000, .i32⟩ : BufTy).Contents (Elt F) :=
  let t_v2 : (⟨S1x600000, .i32⟩ : BufTy).Contents (Elt F) := (((extractStridedSlice S1x600000 ![1, 0] · slices_S2x600000_S1x600000_1_0) : (⟨S2x600000, .i32⟩ : BufTy).Contents (Elt F) → (⟨S1x600000, .i32⟩ : BufTy).Contents (Elt F))) ei
  let t_v3 : (⟨S600000, .i32⟩ : BufTy).Contents (Elt F) := shapeCast S600000 t_v2 shapeCasts_S1x600000_S600000
  t_v3

/-- The symmetric normalisation of every edge, from the in-degrees. -/
def nrm (ei : (⟨S2x600000, .i32⟩ : BufTy).Contents (Elt F)) :
    (⟨S600000, .f32⟩ : BufTy).Contents (Elt F) :=
  let t_v0 : (⟨S1x600000, .i32⟩ : BufTy).Contents (Elt F) := (((extractStridedSlice S1x600000 ![0, 0] · slices_S2x600000_S1x600000_0_0) : (⟨S2x600000, .i32⟩ : BufTy).Contents (Elt F) → (⟨S1x600000, .i32⟩ : BufTy).Contents (Elt F))) ei
  let t_v1 : (⟨S600000, .i32⟩ : BufTy).Contents (Elt F) := shapeCast S600000 t_v0 shapeCasts_S1x600000_S600000
  let t_v2 : (⟨S1x600000, .i32⟩ : BufTy).Contents (Elt F) := (((extractStridedSlice S1x600000 ![1, 0] · slices_S2x600000_S1x600000_1_0) : (⟨S2x600000, .i32⟩ : BufTy).Contents (Elt F) → (⟨S1x600000, .i32⟩ : BufTy).Contents (Elt F))) ei
  let t_v3 : (⟨S600000, .i32⟩ : BufTy).Contents (Elt F) := shapeCast S600000 t_v2 shapeCasts_S1x600000_S600000
  let t_cst : (⟨S_, .f32⟩ : BufTy).Contents (Elt F) := (constant S_ .f32 0x3F800000#32)
  let t_v4 : (⟨S600000, .f32⟩ : BufTy).Contents (Elt F) := ((broadcastInDim S600000 ![] bcast_S_S600000 : (⟨S_, .f32⟩ : BufTy).Contents (Elt F) → (⟨S600000, .f32⟩ : BufTy).Contents (Elt F))) t_cst
  let t_cst_0 : (⟨S_, .f32⟩ : BufTy).Contents (Elt F) := (constant S_ .f32 0x00000000#32)
  let t_v5 : (⟨S100000, .f32⟩ : BufTy).Contents (Elt F) := ((broadcastInDim S100000 ![] bcast_S_S100000 : (⟨S_, .f32⟩ : BufTy).Contents (Elt F) → (⟨S100000, .f32⟩ : BufTy).Contents (Elt F))) t_cst_0
  let t_v6 : (⟨S600000x1, .i32⟩ : BufTy).Contents (Elt F) := ((broadcastInDim S600000x1 ![0] bcast_S600000_S600000x1_0 : (⟨S600000, .i32⟩ : BufTy).Contents (Elt F) → (⟨S600000x1, .i32⟩ : BufTy).Contents (Elt F))) t_v3
  let t_v7 : (⟨S100000, .f32⟩ : BufTy).Contents (Elt F) := (((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F))) t_v5 t_v6 t_v4
  let t_cst_1 : (⟨S_, .f32⟩ : BufTy).Contents (Elt F) := (constant S_ .f32 0x00000000#32)
  let t_v8 : (⟨S100000, .f32⟩ : BufTy).Contents (Elt F) := ((broadcastInDim S100000 ![] bcast_S_S100000 : (⟨S_, .f32⟩ : BufTy).Contents (Elt F) → (⟨S100000, .f32⟩ : BufTy).Contents (Elt F))) t_cst_1
  let t_v9 : (⟨S100000, .i1⟩ : BufTy).Contents (Elt F) := ((cmpf .ogt : (⟨S100000, .f32⟩ : BufTy).Contents (Elt F) → (⟨S100000, .f32⟩ : BufTy).Contents (Elt F) → (⟨S100000, .i1⟩ : BufTy).Contents (Elt F))) t_v7 t_v8
  let t_cst_2 : (⟨S_, .f32⟩ : BufTy).Contents (Elt F) := (constant S_ .f32 0x3F800000#32)
  let t_v10 : (⟨S100000, .f32⟩ : BufTy).Contents (Elt F) := ((broadcastInDim S100000 ![] bcast_S_S100000 : (⟨S_, .f32⟩ : BufTy).Contents (Elt F) → (⟨S100000, .f32⟩ : BufTy).Contents (Elt F))) t_cst_2
  let t_v11 : (⟨S100000, .f32⟩ : BufTy).Contents (Elt F) := ((maximumf : (⟨S100000, .f32⟩ : BufTy).Contents (Elt F) → (⟨S100000, .f32⟩ : BufTy).Contents (Elt F) → (⟨S100000, .f32⟩ : BufTy).Contents (Elt F))) t_v7 t_v10
  let t_v12 : (⟨S100000, .f32⟩ : BufTy).Contents (Elt F) := ((Host.rsqrt : (⟨S100000, .f32⟩ : BufTy).Contents (Elt F) → (⟨S100000, .f32⟩ : BufTy).Contents (Elt F))) t_v11
  let t_cst_3 : (⟨S_, .f32⟩ : BufTy).Contents (Elt F) := (constant S_ .f32 0x00000000#32)
  let t_call0_v0 : (⟨S_, .f32⟩ : BufTy).Contents (Elt F) := (id) t_cst_3
  let t_call0_v1 : (⟨S100000, .f32⟩ : BufTy).Contents (Elt F) := ((broadcastInDim S100000 ![] bcast_S_S100000)) t_call0_v0
  let t_v13 : (⟨S100000, .f32⟩ : BufTy).Contents (Elt F) := (select) t_v9 t_v12 t_call0_v1
  let t_c : (⟨S_, .i32⟩ : BufTy).Contents (Elt F) := (constantI S_ 32 0#32)
  let t_v14 : (⟨S600000, .i32⟩ : BufTy).Contents (Elt F) := ((broadcastInDim S600000 ![] bcast_S_S600000 : (⟨S_, .i32⟩ : BufTy).Contents (Elt F) → (⟨S600000, .i32⟩ : BufTy).Contents (Elt F))) t_c
  let t_v15 : (⟨S600000, .i1⟩ : BufTy).Contents (Elt F) := ((cmpi .slt : (⟨S600000, .i32⟩ : BufTy).Contents (Elt F) → (⟨S600000, .i32⟩ : BufTy).Contents (Elt F) → (⟨S600000, .i1⟩ : BufTy).Contents (Elt F))) t_v1 t_v14
  let t_c_4 : (⟨S_, .i32⟩ : BufTy).Contents (Elt F) := (constantI S_ 32 100000#32)
  let t_v16 : (⟨S600000, .i32⟩ : BufTy).Contents (Elt F) := ((broadcastInDim S600000 ![] bcast_S_S600000 : (⟨S_, .i32⟩ : BufTy).Contents (Elt F) → (⟨S600000, .i32⟩ : BufTy).Contents (Elt F))) t_c_4
  let t_v17 : (⟨S600000, .i32⟩ : BufTy).Contents (Elt F) := ((addi : (⟨S600000, .i32⟩ : BufTy).Contents (Elt F) → (⟨S600000, .i32⟩ : BufTy).Contents (Elt F) → (⟨S600000, .i32⟩ : BufTy).Contents (Elt F))) t_v1 t_v16
  let t_v18 : (⟨S600000, .i32⟩ : BufTy).Contents (Elt F) := ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) t_v15 t_v17 t_v1
  let t_v19 : (⟨S600000x1, .i32⟩ : BufTy).Contents (Elt F) := ((broadcastInDim S600000x1 ![0] bcast_S600000_S600000x1_0 : (⟨S600000, .i32⟩ : BufTy).Contents (Elt F) → (⟨S600000x1, .i32⟩ : BufTy).Contents (Elt F))) t_v18
  let t_v20 : (⟨S600000, .f32⟩ : BufTy).Contents (Elt F) := (((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F))) t_v13 t_v19
  let t_c_5 : (⟨S_, .i32⟩ : BufTy).Contents (Elt F) := (constantI S_ 32 0#32)
  let t_v21 : (⟨S600000, .i32⟩ : BufTy).Contents (Elt F) := ((broadcastInDim S600000 ![] bcast_S_S600000 : (⟨S_, .i32⟩ : BufTy).Contents (Elt F) → (⟨S600000, .i32⟩ : BufTy).Contents (Elt F))) t_c_5
  let t_v22 : (⟨S600000, .i1⟩ : BufTy).Contents (Elt F) := ((cmpi .slt : (⟨S600000, .i32⟩ : BufTy).Contents (Elt F) → (⟨S600000, .i32⟩ : BufTy).Contents (Elt F) → (⟨S600000, .i1⟩ : BufTy).Contents (Elt F))) t_v3 t_v21
  let t_c_6 : (⟨S_, .i32⟩ : BufTy).Contents (Elt F) := (constantI S_ 32 100000#32)
  let t_v23 : (⟨S600000, .i32⟩ : BufTy).Contents (Elt F) := ((broadcastInDim S600000 ![] bcast_S_S600000 : (⟨S_, .i32⟩ : BufTy).Contents (Elt F) → (⟨S600000, .i32⟩ : BufTy).Contents (Elt F))) t_c_6
  let t_v24 : (⟨S600000, .i32⟩ : BufTy).Contents (Elt F) := ((addi : (⟨S600000, .i32⟩ : BufTy).Contents (Elt F) → (⟨S600000, .i32⟩ : BufTy).Contents (Elt F) → (⟨S600000, .i32⟩ : BufTy).Contents (Elt F))) t_v3 t_v23
  let t_v25 : (⟨S600000, .i32⟩ : BufTy).Contents (Elt F) := ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) t_v22 t_v24 t_v3
  let t_v26 : (⟨S600000x1, .i32⟩ : BufTy).Contents (Elt F) := ((broadcastInDim S600000x1 ![0] bcast_S600000_S600000x1_0 : (⟨S600000, .i32⟩ : BufTy).Contents (Elt F) → (⟨S600000x1, .i32⟩ : BufTy).Contents (Elt F))) t_v25
  let t_v27 : (⟨S600000, .f32⟩ : BufTy).Contents (Elt F) := (((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F))) t_v13 t_v26
  let t_v28 : (⟨S600000, .f32⟩ : BufTy).Contents (Elt F) := ((mulf : (⟨S600000, .f32⟩ : BufTy).Contents (Elt F) → (⟨S600000, .f32⟩ : BufTy).Contents (Elt F) → (⟨S600000, .f32⟩ : BufTy).Contents (Elt F))) t_v20 t_v27
  t_v28

/-- One aggregation: gather the projected rows at the edges' sources, scale by the edge's normalisation, add into the targets' rows. -/
def agg (s : (⟨S600000, .i32⟩ : BufTy).Contents (Elt F)) (d : (⟨S600000, .i32⟩ : BufTy).Contents (Elt F)) (n : (⟨S600000, .f32⟩ : BufTy).Contents (Elt F)) (h : (⟨S100000x256, .f32⟩ : BufTy).Contents (Elt F)) :
    (⟨S100000x256, .f32⟩ : BufTy).Contents (Elt F) :=
  let t_c_7 : (⟨S_, .i32⟩ : BufTy).Contents (Elt F) := (constantI S_ 32 0#32)
  let t_v30 : (⟨S600000, .i32⟩ : BufTy).Contents (Elt F) := ((broadcastInDim S600000 ![] bcast_S_S600000 : (⟨S_, .i32⟩ : BufTy).Contents (Elt F) → (⟨S600000, .i32⟩ : BufTy).Contents (Elt F))) t_c_7
  let t_v31 : (⟨S600000, .i1⟩ : BufTy).Contents (Elt F) := ((cmpi .slt : (⟨S600000, .i32⟩ : BufTy).Contents (Elt F) → (⟨S600000, .i32⟩ : BufTy).Contents (Elt F) → (⟨S600000, .i1⟩ : BufTy).Contents (Elt F))) s t_v30
  let t_c_8 : (⟨S_, .i32⟩ : BufTy).Contents (Elt F) := (constantI S_ 32 100000#32)
  let t_v32 : (⟨S600000, .i32⟩ : BufTy).Contents (Elt F) := ((broadcastInDim S600000 ![] bcast_S_S600000 : (⟨S_, .i32⟩ : BufTy).Contents (Elt F) → (⟨S600000, .i32⟩ : BufTy).Contents (Elt F))) t_c_8
  let t_v33 : (⟨S600000, .i32⟩ : BufTy).Contents (Elt F) := ((addi : (⟨S600000, .i32⟩ : BufTy).Contents (Elt F) → (⟨S600000, .i32⟩ : BufTy).Contents (Elt F) → (⟨S600000, .i32⟩ : BufTy).Contents (Elt F))) s t_v32
  let t_v34 : (⟨S600000, .i32⟩ : BufTy).Contents (Elt F) := ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) t_v31 t_v33 s
  let t_v35 : (⟨S600000x1, .i32⟩ : BufTy).Contents (Elt F) := ((broadcastInDim S600000x1 ![0] bcast_S600000_S600000x1_0 : (⟨S600000, .i32⟩ : BufTy).Contents (Elt F) → (⟨S600000x1, .i32⟩ : BufTy).Contents (Elt F))) t_v34
  let t_v36 : (⟨S600000x256, .f32⟩ : BufTy).Contents (Elt F) := (((fun x i => Host.gather gather_S100000x256_S600000x1_S600000x256_1_0_n_n_0_1_1256 x i) : (⟨S100000x256, .f32⟩ : BufTy).Contents (Elt F) → (⟨S600000x1, .i32⟩ : BufTy).Contents (Elt F) → (⟨S600000x256, .f32⟩ : BufTy).Contents (Elt F))) h t_v35
  let t_v37 : (⟨S600000x1, .f32⟩ : BufTy).Contents (Elt F) := ((broadcastInDim S600000x1 ![0] bcast_S600000_S600000x1_0 : (⟨S600000, .f32⟩ : BufTy).Contents (Elt F) → (⟨S600000x1, .f32⟩ : BufTy).Contents (Elt F))) n
  let t_v38 : (⟨S600000x256, .f32⟩ : BufTy).Contents (Elt F) := ((broadcastInDim S600000x256 ![0, 1] bcast_S600000x1_S600000x256_0_1 : (⟨S600000x1, .f32⟩ : BufTy).Contents (Elt F) → (⟨S600000x256, .f32⟩ : BufTy).Contents (Elt F))) t_v37
  let t_v39 : (⟨S600000x256, .f32⟩ : BufTy).Contents (Elt F) := ((mulf : (⟨S600000x256, .f32⟩ : BufTy).Contents (Elt F) → (⟨S600000x256, .f32⟩ : BufTy).Contents (Elt F) → (⟨S600000x256, .f32⟩ : BufTy).Contents (Elt F))) t_v36 t_v38
  let t_cst_9 : (⟨S_, .f32⟩ : BufTy).Contents (Elt F) := (constant S_ .f32 0x00000000#32)
  let t_v40 : (⟨S100000x256, .f32⟩ : BufTy).Contents (Elt F) := ((broadcastInDim S100000x256 ![] bcast_S_S100000x256 : (⟨S_, .f32⟩ : BufTy).Contents (Elt F) → (⟨S100000x256, .f32⟩ : BufTy).Contents (Elt F))) t_cst_9
  let t_v41 : (⟨S600000x1, .i32⟩ : BufTy).Contents (Elt F) := ((broadcastInDim S600000x1 ![0] bcast_S600000_S600000x1_0 : (⟨S600000, .i32⟩ : BufTy).Contents (Elt F) → (⟨S600000x1, .i32⟩ : BufTy).Contents (Elt F))) d
  let t_v42 : (⟨S100000x256, .f32⟩ : BufTy).Contents (Elt F) := (((fun x i u => Host.scatterAdd scatter_S100000x256_S600000x1_S600000x256_1_0_0_1 x i u) : (⟨S100000x256, .f32⟩ : BufTy).Contents (Elt F) → (⟨S600000x1, .i32⟩ : BufTy).Contents (Elt F) → (⟨S600000x256, .f32⟩ : BufTy).Contents (Elt F) → (⟨S100000x256, .f32⟩ : BufTy).Contents (Elt F))) t_v40 t_v41 t_v39
  t_v42

end Cert.KernelIdeal.Tab

end
-- ==== Proof.KChain.lean ====
/-
  The host stretches of the kernel's program, read at the buffers later segments use.

  Before the first region the program cuts the edge list into its two rows (the sources and the targets), counts
  the in-degrees by a scatter-add of ones, and forms each edge's normalisation dinv[src]·dinv[dst].  Between a
  projection and the activation that follows it, it gathers the projected rows at the sources, scales them and
  adds them into the targets' rows.  Each stretch writes only its own fresh buffers, so the edge rows, the
  normalisation and every argument array are still what they were when a later segment reads them.
-/
import proofs.«143275_j523986010649_1_alg».proof.Proof.Gen.KernelIdeal.Launch
import proofs.«143275_j523986010649_1_alg».proof.Proof.KTab
import Idealize.ShloMosaic.Lib.StableHlo.Run

noncomputable section

namespace Cert.KernelIdeal.Val

open Idealize.ShloMosaic Idealize.ShloMosaic.StableHlo Cert.KernelIdeal Cert.KernelIdeal.Gen

variable {F : FTy → Type} [FloatOps F]

/-! ## What the stretches compute -/

/-- After the stretches before the first region, the buffer of edge sources holds row 0 of the edge list. -/
theorem src_eq (V : Valuation τ sig (Elt F)) :
    after hostOps0_2 (after hostOps0_1 (after hostOps0 V)) (Proc.devRef .tc main_v1) = Tab.src (V (Proc.devRef .tc main_arg1)) := by
  dsimp only [hostOps0, hostOps0_1, hostOps0_2]
  after_results_simp
  rfl

/-- … the buffer of edge targets holds row 1 of the edge list, -/
theorem dst_eq (V : Valuation τ sig (Elt F)) :
    after hostOps0_2 (after hostOps0_1 (after hostOps0 V)) (Proc.devRef .tc main_v3) = Tab.dst (V (Proc.devRef .tc main_arg1)) := by
  dsimp only [hostOps0, hostOps0_1, hostOps0_2]
  after_results_simp
  rfl

/-- … and the buffer of normalisations holds dinv[src]·dinv[dst] of the edge list's in-degrees. -/
theorem nrm_eq (V : Valuation τ sig (Elt F)) :
    after hostOps0_2 (after hostOps0_1 (after hostOps0 V)) (Proc.devRef .tc main_v28) = Tab.nrm (V (Proc.devRef .tc main_arg1)) := by
  dsimp only [hostOps0, hostOps0_1, hostOps0_2]
  after_results_simp
  rfl

/-- The stretch after the first projection aggregates it along the edges. -/
theorem agg1_eq (V : Valuation τ sig (Elt F)) :
    after hostOps1 V (Proc.devRef .tc main_v42)
      = Tab.agg (V (Proc.devRef .tc main_v1)) (V (Proc.devRef .tc main_v3)) (V (Proc.devRef .tc main_v28)) (V (Proc.devRef .tc main_v29)) := by
  dsimp only [hostOps1]
  after_results_simp
  rfl

/-- The stretch after the second projection aggregates it the same way. -/
theorem agg3_eq (V : Valuation τ sig (Elt F)) :
    after hostOps3 V (Proc.devRef .tc main_v57)
      = Tab.agg (V (Proc.devRef .tc main_v1)) (V (Proc.devRef .tc main_v3)) (V (Proc.devRef .tc main_v28)) (V (Proc.devRef .tc main_v44)) := by
  dsimp only [hostOps3]
  after_results_simp
  rfl

/-- The stretch after the third projection aggregates it the same way. -/
theorem agg5_eq (V : Valuation τ sig (Elt F)) :
    after hostOps5 V (Proc.devRef .tc main_v72)
      = Tab.agg (V (Proc.devRef .tc main_v1)) (V (Proc.devRef .tc main_v3)) (V (Proc.devRef .tc main_v28)) (V (Proc.devRef .tc main_v59)) := by
  dsimp only [hostOps5]
  after_results_simp
  rfl

/-! ## What the stretches leave alone -/

/-- A reference none of a stretch's operations writes keeps its contents: every operation's one result reference
    is another reference. -/
local macro "kept_by " ops:ident : tactic => `(tactic|
  exact after_of_forall_not_mem _ _ (List.forall_iff_forall_mem.mp (by
    simp only [$ops:ident, List.Forall, nullary_writes, unary_writes, binary_writes, ternary_writes, quaternary_writes,
      reshape_writes, binaryIndexed_writes, Finset.mem_singleton]
    repeat' apply And.intro
    all_goals exact devRef_ne_of_ne (by decide))))

/-- The stretches before the first region write no argument array. -/
theorem kept0 (V : Valuation τ sig (Elt F)) {b : Ref sig .tc}
    (hb : b = main_arg0 ∨ b = main_arg2 ∨ b = main_arg3 ∨ b = main_arg4 ∨ b = main_arg5 ∨ b = main_arg6 ∨ b = main_arg7) :
    after hostOps0_2 (after hostOps0_1 (after hostOps0 V)) (Proc.devRef .tc b) = V (Proc.devRef .tc b) := by
  have h2 : after hostOps0_2 (after hostOps0_1 (after hostOps0 V)) (Proc.devRef .tc b) = after hostOps0_1 (after hostOps0 V) (Proc.devRef .tc b) := by
    rcases hb with rfl | rfl | rfl | rfl | rfl | rfl | rfl <;> kept_by hostOps0_2
  have h1 : after hostOps0_1 (after hostOps0 V) (Proc.devRef .tc b) = after hostOps0 V (Proc.devRef .tc b) := by
    rcases hb with rfl | rfl | rfl | rfl | rfl | rfl | rfl <;> kept_by hostOps0_1
  have h0 : after hostOps0 V (Proc.devRef .tc b) = V (Proc.devRef .tc b) := by
    rcases hb with rfl | rfl | rfl | rfl | rfl | rfl | rfl <;> kept_by hostOps0
  exact h2.trans (h1.trans h0)

/-- The first aggregation writes neither the edge rows, nor the normalisation, nor a later layer's arguments. -/
theorem kept1 (V : Valuation τ sig (Elt F)) {b : Ref sig .tc}
    (hb : b = main_v1 ∨ b = main_v3 ∨ b = main_v28 ∨ b = main_arg3 ∨ b = main_arg4 ∨ b = main_arg5 ∨ b = main_arg6 ∨ b = main_arg7) :
    after hostOps1 V (Proc.devRef .tc b) = V (Proc.devRef .tc b) := by
  rcases hb with rfl | rfl | rfl | rfl | rfl | rfl | rfl | rfl <;> kept_by hostOps1

/-- Nor does the second, -/
theorem kept3 (V : Valuation τ sig (Elt F)) {b : Ref sig .tc}
    (hb : b = main_v1 ∨ b = main_v3 ∨ b = main_v28 ∨ b = main_arg5 ∨ b = main_arg6 ∨ b = main_arg7) :
    after hostOps3 V (Proc.devRef .tc b) = V (Proc.devRef .tc b) := by
  rcases hb with rfl | rfl | rfl | rfl | rfl | rfl <;> kept_by hostOps3

/-- and the third leaves the last bias alone. -/
theorem kept5 (V : Valuation τ sig (Elt F)) :
    after hostOps5 V (Proc.devRef .tc main_arg7) = V (Proc.devRef .tc main_arg7) := by
  kept_by hostOps5

end Cert.KernelIdeal.Val

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«143275_j523986010649_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibElu.lean ====
/-
  The exponential linear unit over the extended reals, in its two usual spellings, and that they agree.

  One spelling is  v if v > 0 else exp v − 1.  The other is  where(v > 0, v, 1 · expm1(where(v > 0, 0, v))),  written so
  that expm1 is never applied to a large positive argument; on a whole array every scalar in it is a zero-rank constant
  spread to the array's shape.  Where the guard fails the inner choice returns v itself, expm1 is exp − 1 over the
  extended reals, and 1 · y = y, so the two agree at every extended real v, the infinities included.  Generic in the
  array's shape.
-/
import Idealize.ShloMosaic.PureOps.Ideal.Laws
import Idealize.ShloMosaic.Lib.ValueIdx
import Idealize.ShloMosaic.Lib.IdealHost
import Idealize.ShloMosaic.Lib.Pipeline.Value

noncomputable section

namespace Cert.LibElu

open Idealize.ShloMosaic Idealize.ShloMosaic.ValueIdx

/-- The exponential linear unit in its direct spelling: the value itself where it is positive, exp − 1 elsewhere. -/
def elu (v : EReal) : EReal :=
  Scalar.select (Ideal.cmp .ogt v (Ideal.ofBits .f32 0x00000000#32)) v (Ideal.exp v - Ideal.ofBits .f32 0x3F800000#32)

/-- For any guard bit the two spellings of the unit's value agree: under the guard both are `v`; otherwise the inner
    choice is `v`, and `1 · (exp v − 1) = exp v − 1`. -/
theorem elu_scalar (c : BitVec 1) (v z : EReal) :
    Scalar.select c v (Ideal.ofBits .f32 0x3F800000#32 * (Ideal.exp (Scalar.select c z v) - 1))
      = Scalar.select c v (Ideal.exp v - Ideal.ofBits .f32 0x3F800000#32) := by
  unfold Scalar.select
  by_cases h : c = 1
  · simp only [if_pos h]
  · simp only [if_neg h, Ideal.ofBits_one_f32, one_mul]

/-- A scalar spread to any shape reads the scalar. -/
theorem bcast_scalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- The unit as jax spells it on a whole array — `where(v > 0, v, 1 · expm1(where(v > 0, 0, v)))`, every scalar a
    zero-rank constant spread to the array's shape — is `elu` entry by entry. -/
theorem elu_jax_apply {s : Shape} (v : FVec Ideal s .f32) (h0 : (⟨0, ![]⟩ : Shape).BroadcastsInDim s ![]) (j : s.Idx) :
    select (cmpf .ogt v (broadcastInDim s ![] h0 (constant (F := Ideal) ⟨0, ![]⟩ .f32 0x00000000#32))) v
      (mulf (broadcastInDim s ![] h0 (constant (F := Ideal) ⟨0, ![]⟩ .f32 0x3F800000#32))
        (Host.expm1 (select (cmpf .ogt v (broadcastInDim s ![] h0 (constant (F := Ideal) ⟨0, ![]⟩ .f32 0x00000000#32)))
          (broadcastInDim s ![] h0 (id (constant (F := Ideal) ⟨0, ![]⟩ .f32 0x00000000#32))) v))) j = elu (v j) := by
  simp only [select, cmpf, mulf, Host.expm1, id, bcast_scalar_apply, constant]
  exact elu_scalar _ _ _

end Cert.LibElu

end
-- ==== Proof.Math.lean ====
/-
  The two places where a graph-convolution layer's two programs are spelt differently, over the extended reals.

  * The dense projection.  One program multiplies row blocks of the activations by the weight matrix on the matrix
    unit (operands narrowed to a shorter float format, which over the extended reals changes nothing), the other
    applies one whole contraction.  Entry (p, c) of either is Σ_k h(p, k) · W(k, c): `mm`.
  * The activation.  With v = (aggregate + bias), one program computes  v if v > 0 else exp v − 1,  the other
    v if v > 0 else 1 · expm1 (0 if v > 0 else v).  Where the guard fails the inner choice returns v itself, expm1 is
    exp − 1 over the extended reals, and 1 · y = y: the two agree for every extended real v (`elu_scalar`).
-/
import Idealize.ShloMosaic.PureOps.Ideal.Laws
import Idealize.ShloMosaic.Lib.ValueIdx
import Idealize.ShloMosaic.Lib.IdealHost
import Idealize.ShloMosaic.Lib.Pipeline.Value
import proofs.«143275_j523986010649_1_alg».proof.Proof.LibPlainDotFormats
import proofs.«143275_j523986010649_1_alg».proof.Proof.LibElu

noncomputable section

namespace Cert.Gcn

open Idealize.ShloMosaic Idealize.ShloMosaic.ValueIdx

export Cert.LibElu (elu elu_scalar bcast_scalar_apply elu_jax_apply)

/-! ## The dense projection -/

/-- The matrix product, entry by entry. -/
def mm {A K B : Nat} (l : (⟨2, ![A, K]⟩ : Shape).Idx → EReal) (r : (⟨2, ![K, B]⟩ : Shape).Idx → EReal) :
    (⟨2, ![A, B]⟩ : Shape).Idx → EReal :=
  fun j => ∑ k : Fin K, l (ix2 (j 0) k) * r (ix2 k (j 1))

theorem mm_apply {A K B : Nat} (l : (⟨2, ![A, K]⟩ : Shape).Idx → EReal) (r : (⟨2, ![K, B]⟩ : Shape).Idx → EReal)
    (p : Fin A) (c : Fin B) : mm l r (ix2 p c) = ∑ k : Fin K, l (ix2 p k) * r (ix2 k c) := rfl

/-- A whole host contraction of plain dimension numbers is the matrix product. -/
theorem dotGeneral_eq_mm {A K B : Nat} {D : DotDims ⟨2, ![A, K]⟩ ⟨2, ![K, B]⟩ ⟨2, ![A, B]⟩} (h : LibPlainDot.Plain D)
    (prec : Option ContractPrecision) (l : FVec Ideal ⟨2, ![A, K]⟩ .f32) (r : FVec Ideal ⟨2, ![K, B]⟩ .f32) :
    Host.dotGeneral D prec l r = mm l r := by
  funext j
  obtain ⟨p, c, rfl⟩ : ∃ (p : Fin A) (c : Fin B), j = ix2 p c := ⟨j 0, j 1, eq_ix2 j⟩
  exact h.dotGeneral_apply prec .single l r p c

/-! ## The activation -/

/-- A bias vector added along every row, then the unit: what one layer leaves, entry by entry. -/
def eluBias {N D : Nat} (a : (⟨2, ![N, D]⟩ : Shape).Idx → EReal) (b : (⟨1, ![D]⟩ : Shape).Idx → EReal) :
    (⟨2, ![N, D]⟩ : Shape).Idx → EReal :=
  fun j => elu (a j + b (ix1 (j 1)))

theorem eluBias_apply {N D : Nat} (a : (⟨2, ![N, D]⟩ : Shape).Idx → EReal) (b : (⟨1, ![D]⟩ : Shape).Idx → EReal)
    (p : Fin N) (q : Fin D) : eluBias a b (ix2 p q) = elu (a (ix2 p q) + b (ix1 q)) := rfl

end Cert.Gcn

end
-- ==== Proof.KReg0.lean ====
/-
  Region 0: a dense projection, tiled over the rows.

  Grid point t takes rows 5000·t … 5000·t + 4999 of the activations and the whole weight matrix, multiplies them on
  the matrix unit into a zero accumulator and writes the product to the same rows of the result.  Entry (p, q) of
  that block is Σ_k a(5000·t + p, k) · W(k, q), which is entry (5000·t + p, q) of the whole product; the twenty
  blocks tile the result's rows, so after the region the result array is the whole product.
-/
import proofs.«143275_j523986010649_1_alg».proof.Proof.Gen.KernelIdeal.Frame
import proofs.«143275_j523986010649_1_alg».proof.Proof.Math
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Facts Cert.KernelIdeal.Gen Cert.Gcn

theorem zero2_0 : (![0, 0] : Fin 2 → Nat) = fun _ => 0 := funext fun a => by fin_cases a <;> rfl

/-- The block product's dimension numbers: the second axis of the rows against the first axis of the weights. -/
theorem plain0 : LibPlainDot.Plain dot_S5000x64_S64x256_S5000x256_1_0_0_1_n_n := ⟨rfl, rfl, rfl, rfl, rfl, rfl⟩

/-- The body's value at an entry of its block: narrowing to a shorter float format changes nothing over the extended
    reals, and the matrix unit's product into zero is the plain sum. -/
theorem pay0_apply (x0 : Vec Ideal S5000x64 .f32) (x1 : Vec Ideal S64x256 .f32) (j : S5000x256.Idx) :
    k0_pay1 x0 x1 j = ∑ k : Fin 64, x0 (ix2 (j 0) k) * x1 (ix2 k (j 1)) := by
  obtain ⟨p, q, rfl⟩ : ∃ (p : Fin 5000) (q : Fin 256), j = ix2 p q := ⟨j 0, j 1, eq_ix2 j⟩
  unfold k0_pay1
  exact plain0.matmul_zero_apply_formats none (truncf .bf16 x0) (truncf .bf16 x1) p q

/-- The block's sums are the whole product's, once each operand's entry in its block is the entry of its array that
    the result's entry needs. -/
theorem rows0 (A : S100000x64.Idx → EReal) (W : S64x256.Idx → EReal) (x0 : S5000x64.Idx → EReal) (x1 : S64x256.Idx → EReal)
    (j : S5000x256.Idx) (i : S100000x256.Idx) (h0 : ∀ k : Fin 64, x0 (ix2 (j 0) k) = A (ix2 (i 0) k))
    (h1 : ∀ k : Fin 64, x1 (ix2 k (j 1)) = W (ix2 k (i 1))) :
    ∑ k : Fin 64, x0 (ix2 (j 0) k) * x1 (ix2 k (j 1)) = mm A W i :=
  Finset.sum_congr rfl fun k _ => by rw [h0 k, h1 k]

/-- Where each window's block sits at grid point `t`: the activations' and the result's blocks at block row `t`, the
    weights' one block at the origin. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block row of the result is some point's. -/
theorem idx_onto0 : ∀ (q0 : Fin 20), ∃ t : Fin cfg0.N, win0_2.index t = ![q0.val, 0] :=
  (by decide +kernel : ∀ (q0 : Fin 20), ∃ t : Fin grid0.N, win0_2.index t = ![q0.val, 0])

section
variable (V : (c : Dev nD) → (b : Ref sig .tc) → Buf (Elt Ideal) ((c : Thread nD τ).loc b))

/-- What point `t` writes back is block `t` of the whole product of the arrays as the region finds them. -/
theorem flushed0 (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero zero2_0]
  simp only [View.ld_unit_zero (S := S5000x64) zero2_0, View.ld_unit_zero (S := S64x256) zero2_0]
  obtain ⟨e0, e1, e2, e3, e4, e5⟩ := idx_facts0 t
  funext j
  refine (pay0_apply (iblk0 V c 0 t) (iblk0 V c 1 t) j).trans ?_
  rw [View.read_apply]
  refine rows0 (V c main_arg0) (V c main_arg2) (iblk0 V c 0 t) (iblk0 V c 1 t) j _ (fun k => ?_) (fun k => ?_)
  · have h0 : ((cfg0.win 0).blk t).view.emb (ix2 (j 0) k) = ix2 ((((cfg0.win 2).blk t).view.emb j) 0) k := by
      funext a; apply Fin.ext
      match a with
      | ⟨0, _⟩ => show win0_0.index t (0 : Fin 2) * 5000 + 1 * (j 0).val = win0_2.index t (0 : Fin 2) * 5000 + 1 * (j 0).val; omega
      | ⟨1, _⟩ => show win0_0.index t (1 : Fin 2) * 64 + 1 * k.val = k.val; omega
    show V c main_arg0 (((cfg0.win 0).blk t).view.emb (ix2 (j 0) k)) = _
    rw [h0]; rfl
  · have h1 : ((cfg0.win 1).blk t).view.emb (ix2 k (j 1)) = ix2 k ((((cfg0.win 2).blk t).view.emb j) 1) := by
      funext a; apply Fin.ext
      match a with
      | ⟨0, _⟩ => show win0_1.index t (0 : Fin 2) * 64 + 1 * k.val = k.val; omega
      | ⟨1, _⟩ => show win0_1.index t (1 : Fin 2) * 256 + 1 * (j 1).val = win0_2.index t (1 : Fin 2) * 256 + 1 * (j 1).val; omega
    show V c main_arg2 (((cfg0.win 1).blk t).view.emb (ix2 k (j 1))) = _
    rw [h1]; rfl

/-- An entry of the result is in point `t`'s block iff its row is among the block's 5000 rows. -/
theorem mem_blk0 (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v29).slice (win0_2.rect t)).set ↔ _
  rw [View.set_slice_whole, Rect.mem_set_unit]
  exact Iff.rfl

/-- Every entry of the result is in the block of the point that owns its row: row `r` belongs to point `r / 5000`. -/
theorem cover0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the region the result array is the whole product. -/
theorem final0 (c : Dev nD) : (dat0 V c).arrAt 2 cfg0.N = mm (V c main_arg0) (V c main_arg2) :=
  (dat0 V c).arrAt_eq_of_cover 2 _ (fun t _ => flushed0 V c t) cover0

end

end Cert.KernelIdeal.Val

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.KReg1.lean ====
/-
  Region 1: the bias and the activation, tiled over the rows.

  Grid point t takes rows 5000·t … 5000·t + 4999 of the aggregate and the whole bias vector, adds the bias along
  every row and applies the exponential linear unit entry by entry, writing the same rows of the result.  Entry
  (p, q) of that block is elu(a(5000·t + p, q) + b(q)), which is entry (5000·t + p, q) of the whole array's
  activation; the twenty blocks tile the rows, so after the region the result is the activation of the whole array.
-/
import proofs.«143275_j523986010649_1_alg».proof.Proof.Gen.KernelIdeal.Frame
import proofs.«143275_j523986010649_1_alg».proof.Proof.Math
import proofs.«143275_j523986010649_1_alg».proof.Proof.LibRowLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Facts Cert.KernelIdeal.Gen Cert.Gcn

theorem zero2_1 : (![0, 0] : Fin 2 → Nat) = fun _ => 0 := funext fun a => by fin_cases a <;> rfl
theorem zero1_1 : (![0] : Fin 1 → Nat) = fun _ => 0 := funext fun a => by fin_cases a; rfl

/-- The body's value at an entry of its block: the bias vector, viewed as one row and spread over the rows, is read
    at the entry's column; the rest is entry by entry. -/
theorem pay1_apply (x0 : S5000x256.Idx → EReal) (x1 : S256.Idx → EReal) (j : S5000x256.Idx) :
    k1_pay1 (F := Ideal) x0 x1 j = elu (x0 j + x1 (ix1 (j 1))) := by
  obtain ⟨p, q, rfl⟩ : ∃ (p : Fin 5000) (q : Fin 256), j = ix2 p q := ⟨j 0, j 1, eq_ix2 j⟩
  have e4 : broadcastTo S5000x256 (shapeCast S1x256 x1 Facts₀.shapeCasts_S256_S1x256) Facts₀.broadcasts_S1x256_S5000x256 (ix2 p q) = x1 (ix1 q) :=
    (LibRowLayout.broadcastTo_1b_ab_apply _ _ p q).trans (LibRowLayout.shapeCast_b_1b_apply x1 _ 0 q)
  unfold k1_pay1
  show elu (shapeCast S5000x256 x0 Facts₀.shapeCasts_S5000x256_S5000x256 (ix2 p q)
      + broadcastTo S5000x256 (shapeCast S1x256 x1 Facts₀.shapeCasts_S256_S1x256) Facts₀.broadcasts_S1x256_S5000x256 (ix2 p q)) = _
  rw [shapeCast_self, e4]

/-- The block's entry is the whole array's, once the aggregate's entry in its block and the bias's entry are the
    entries the result's entry needs. -/
theorem entry1 (A : S100000x256.Idx → EReal) (B : S256.Idx → EReal) (x0 : S5000x256.Idx → EReal) (x1 : S256.Idx → EReal)
    (j : S5000x256.Idx) (i : S100000x256.Idx) (h0 : x0 j = A i) (h1 : x1 (ix1 (j 1)) = B (ix1 (i 1))) :
    elu (x0 j + x1 (ix1 (j 1))) = eluBias A B i := by
  rw [h0, h1]; rfl

/-- Where each window's block sits at grid point `t`: the aggregate's and the result's blocks at block row `t`, the
    bias's one block at the origin. -/
theorem idx_facts1 : ∀ t : Fin cfg1.N, win1_0.index t (0 : Fin 2) = win1_2.index t (0 : Fin 2)
    ∧ win1_0.index t (1 : Fin 2) = 0
    ∧ win1_1.index t (0 : Fin 1) = 0
    ∧ win1_2.index t (1 : Fin 2) = 0
    ∧ win1_2.index t (0 : Fin 2) ≤ 19 :=
  (by decide +kernel : ∀ t : Fin grid1.N, _)

/-- Every block row of the result is some point's. -/
theorem idx_onto1 : ∀ (q0 : Fin 20), ∃ t : Fin cfg1.N, win1_2.index t = ![q0.val, 0] :=
  (by decide +kernel : ∀ (q0 : Fin 20), ∃ t : Fin grid1.N, win1_2.index t = ![q0.val, 0])

section
variable (V : (c : Dev nD) → (b : Ref sig .tc) → Buf (Elt Ideal) ((c : Thread nD τ).loc b))

/-- What point `t` writes back is block `t` of the whole array's activation, of the arrays as the region finds them. -/
theorem flushed1 (c : Dev nD) (t : Fin cfg1.N) :
    (dat1 V c).flushed 2 t = ((cfg1.win 2).blk t).view.read (Elt Ideal) (eluBias (V c main_v42) (V c main_arg3)) := by
  show (cfg1.win 2).cut (grid1.coords t) ((dat1 V c).after 2 t) = _
  rw [after1_2]
  unfold out1_2
  rw [View.canon_unit_zero zero2_1]
  simp only [View.ld_unit_zero (S := S5000x256) zero2_1, View.ld_unit_zero (S := S256) zero1_1]
  obtain ⟨e0, e1, e2, e3, e4⟩ := idx_facts1 t
  funext j
  refine (pay1_apply (iblk1 V c 0 t) (iblk1 V c 1 t) j).trans ?_
  rw [View.read_apply]
  refine entry1 (V c main_v42) (V c main_arg3) (iblk1 V c 0 t) (iblk1 V c 1 t) j _ ?_ ?_
  · have h0 : ((cfg1.win 0).blk t).view.emb j = ((cfg1.win 2).blk t).view.emb j := by
      funext a; apply Fin.ext
      match a with
      | ⟨0, _⟩ => show win1_0.index t (0 : Fin 2) * 5000 + 1 * (j 0).val = win1_2.index t (0 : Fin 2) * 5000 + 1 * (j 0).val; omega
      | ⟨1, _⟩ => show win1_0.index t (1 : Fin 2) * 256 + 1 * (j 1).val = win1_2.index t (1 : Fin 2) * 256 + 1 * (j 1).val; omega
    show V c main_v42 (((cfg1.win 0).blk t).view.emb j) = _
    rw [h0]
  · have h1 : ((cfg1.win 1).blk t).view.emb (ix1 (j 1)) = ix1 ((((cfg1.win 2).blk t).view.emb j) 1) := by
      funext a; apply Fin.ext
      match a with
      | ⟨0, _⟩ => show win1_1.index t (0 : Fin 1) * 256 + 1 * (j 1).val = win1_2.index t (1 : Fin 2) * 256 + 1 * (j 1).val; omega
    show V c main_arg3 (((cfg1.win 1).blk t).view.emb (ix1 (j 1))) = _
    rw [h1]; rfl

/-- An entry of the result is in point `t`'s block iff its row is among the block's 5000 rows. -/
theorem mem_blk1 (t : Fin cfg1.N) (i : S100000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v43).slice (win1_2.rect t)).set ↔ _
  rw [View.set_slice_whole, Rect.mem_set_unit]
  exact Iff.rfl

/-- Every entry of the result is in the block of the point that owns its row: row `r` belongs to point `r / 5000`. -/
theorem cover1 (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- After the region the result array is the activation of the whole array. -/
theorem final1 (c : Dev nD) : (dat1 V c).arrAt 2 cfg1.N = eluBias (V c main_v42) (V c main_arg3) :=
  (dat1 V c).arrAt_eq_of_cover 2 _ (fun t _ => flushed1 V c t) cover1

end

end Cert.KernelIdeal.Val

end
-- ==== Proof.KReg2.lean ====
/-
  Region 2: a dense projection, tiled over the rows.

  Grid point t takes rows 5000·t … 5000·t + 4999 of the activations and the whole weight matrix, multiplies them on
  the matrix unit into a zero accumulator and writes the product to the same rows of the result.  Entry (p, q) of
  that block is Σ_k a(5000·t + p, k) · W(k, q), which is entry (5000·t + p, q) of the whole product; the twenty
  blocks tile the result's rows, so after the region the result array is the whole product.
-/
import proofs.«143275_j523986010649_1_alg».proof.Proof.Gen.KernelIdeal.Frame
import proofs.«143275_j523986010649_1_alg».proof.Proof.Math
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Facts Cert.KernelIdeal.Gen Cert.Gcn

theorem zero2_2 : (![0, 0] : Fin 2 → Nat) = fun _ => 0 := funext fun a => by fin_cases a <;> rfl

/-- The block product's dimension numbers: the second axis of the rows against the first axis of the weights. -/
theorem plain2 : LibPlainDot.Plain dot_S5000x256_S256x256_S5000x256_1_0_0_1_n_n := ⟨rfl, rfl, rfl, rfl, rfl, rfl⟩

/-- The body's value at an entry of its block: narrowing to a shorter float format changes nothing over the extended
    reals, and the matrix unit's product into zero is the plain sum. -/
theorem pay2_apply (x0 : Vec Ideal S5000x256 .f32) (x1 : Vec Ideal S256x256 .f32) (j : S5000x256.Idx) :
    k2_pay1 x0 x1 j = ∑ k : Fin 256, x0 (ix2 (j 0) k) * x1 (ix2 k (j 1)) := by
  obtain ⟨p, q, rfl⟩ : ∃ (p : Fin 5000) (q : Fin 256), j = ix2 p q := ⟨j 0, j 1, eq_ix2 j⟩
  unfold k2_pay1
  rw [shapeCast_self]
  exact plain2.matmul_zero_apply_formats none (truncf .bf16 x0) (truncf .bf16 x1) p q

/-- The block's sums are the whole product's, once each operand's entry in its block is the entry of its array that
    the result's entry needs. -/
theorem rows2 (A : S100000x256.Idx → EReal) (W : S256x256.Idx → EReal) (x0 : S5000x256.Idx → EReal) (x1 : S256x256.Idx → EReal)
    (j : S5000x256.Idx) (i : S100000x256.Idx) (h0 : ∀ k : Fin 256, x0 (ix2 (j 0) k) = A (ix2 (i 0) k))
    (h1 : ∀ k : Fin 256, x1 (ix2 k (j 1)) = W (ix2 k (i 1))) :
    ∑ k : Fin 256, x0 (ix2 (j 0) k) * x1 (ix2 k (j 1)) = mm A W i :=
  Finset.sum_congr rfl fun k _ => by rw [h0 k, h1 k]

/-- Where each window's block sits at grid point `t`: the activations' and the result's blocks at block row `t`, the
    weights' one block at the origin. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every block row of the result is some point's. -/
theorem idx_onto2 : ∀ (q0 : Fin 20), ∃ t : Fin cfg2.N, win2_2.index t = ![q0.val, 0] :=
  (by decide +kernel : ∀ (q0 : Fin 20), ∃ t : Fin grid2.N, win2_2.index t = ![q0.val, 0])

section
variable (V : (c : Dev nD) → (b : Ref sig .tc) → Buf (Elt Ideal) ((c : Thread nD τ).loc b))

/-- What point `t` writes back is block `t` of the whole product of the arrays as the region finds them. -/
theorem flushed2 (c : Dev nD) (t : Fin cfg2.N) :
    (dat2 V c).flushed 2 t = ((cfg2.win 2).blk t).view.read (Elt Ideal) (mm (V c main_v43) (V c main_arg4)) := by
  show (cfg2.win 2).cut (grid2.coords t) ((dat2 V c).after 2 t) = _
  rw [after2_2]
  unfold out2_2
  rw [View.canon_unit_zero zero2_2]
  simp only [View.ld_unit_zero (S := S5000x256) zero2_2, View.ld_unit_zero (S := S256x256) zero2_2]
  obtain ⟨e0, e1, e2, e3, e4, e5⟩ := idx_facts2 t
  funext j
  refine (pay2_apply (iblk2 V c 0 t) (iblk2 V c 1 t) j).trans ?_
  rw [View.read_apply]
  refine rows2 (V c main_v43) (V c main_arg4) (iblk2 V c 0 t) (iblk2 V c 1 t) j _ (fun k => ?_) (fun k => ?_)
  · have h0 : ((cfg2.win 0).blk t).view.emb (ix2 (j 0) k) = ix2 ((((cfg2.win 2).blk t).view.emb j) 0) k := by
      funext a; apply Fin.ext
      match a with
      | ⟨0, _⟩ => show win2_0.index t (0 : Fin 2) * 5000 + 1 * (j 0).val = win2_2.index t (0 : Fin 2) * 5000 + 1 * (j 0).val; omega
      | ⟨1, _⟩ => show win2_0.index t (1 : Fin 2) * 256 + 1 * k.val = k.val; omega
    show V c main_v43 (((cfg2.win 0).blk t).view.emb (ix2 (j 0) k)) = _
    rw [h0]; rfl
  · have h1 : ((cfg2.win 1).blk t).view.emb (ix2 k (j 1)) = ix2 k ((((cfg2.win 2).blk t).view.emb j) 1) := by
      funext a; apply Fin.ext
      match a with
      | ⟨0, _⟩ => show win2_1.index t (0 : Fin 2) * 256 + 1 * k.val = k.val; omega
      | ⟨1, _⟩ => show win2_1.index t (1 : Fin 2) * 256 + 1 * (j 1).val = win2_2.index t (1 : Fin 2) * 256 + 1 * (j 1).val; omega
    show V c main_arg4 (((cfg2.win 1).blk t).view.emb (ix2 k (j 1))) = _
    rw [h1]; rfl

/-- An entry of the result is in point `t`'s block iff its row is among the block's 5000 rows. -/
theorem mem_blk2 (t : Fin cfg2.N) (i : S100000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v44).slice (win2_2.rect t)).set ↔ _
  rw [View.set_slice_whole, Rect.mem_set_unit]
  exact Iff.rfl

/-- Every entry of the result is in the block of the point that owns its row: row `r` belongs to point `r / 5000`. -/
theorem cover2 (i : S100000x256.Idx) :
    ∃ t : Fin cfg2.N, (cfg2.win 2).flush t = true ∧ i ∈ ((cfg2.win 2).blk t).view.set := by
  have hi0 : (i 0).val < 100000 := (i 0).isLt
  have hi1 : (i 1).val < 256 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- After the region the result array is the whole product. -/
theorem final2 (c : Dev nD) : (dat2 V c).arrAt 2 cfg2.N = mm (V c main_v43) (V c main_arg4) :=
  (dat2 V c).arrAt_eq_of_cover 2 _ (fun t _ => flushed2 V c t) cover2

end

end Cert.KernelIdeal.Val

end
-- ==== Proof.KReg3.lean ====
/-
  Region 3: the bias and the activation, tiled over the rows.

  Grid point t takes rows 5000·t … 5000·t + 4999 of the aggregate and the whole bias vector, adds the bias along
  every row and applies the exponential linear unit entry by entry, writing the same rows of the result.  Entry
  (p, q) of that block is elu(a(5000·t + p, q) + b(q)), which is entry (5000·t + p, q) of the whole array's
  activation; the twenty blocks tile the rows, so after the region the result is the activation of the whole array.
-/
import proofs.«143275_j523986010649_1_alg».proof.Proof.Gen.KernelIdeal.Frame
import proofs.«143275_j523986010649_1_alg».proof.Proof.Math
import proofs.«143275_j523986010649_1_alg».proof.Proof.LibRowLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Facts Cert.KernelIdeal.Gen Cert.Gcn

theorem zero2_3 : (![0, 0] : Fin 2 → Nat) = fun _ => 0 := funext fun a => by fin_cases a <;> rfl
theorem zero1_3 : (![0] : Fin 1 → Nat) = fun _ => 0 := funext fun a => by fin_cases a; rfl

/-- The body's value at an entry of its block: the bias vector, viewed as one row and spread over the rows, is read
    at the entry's column; the rest is entry by entry. -/
theorem pay3_apply (x0 : S5000x256.Idx → EReal) (x1 : S256.Idx → EReal) (j : S5000x256.Idx) :
    k3_pay1 (F := Ideal) x0 x1 j = elu (x0 j + x1 (ix1 (j 1))) := by
  obtain ⟨p, q, rfl⟩ : ∃ (p : Fin 5000) (q : Fin 256), j = ix2 p q := ⟨j 0, j 1, eq_ix2 j⟩
  have e4 : broadcastTo S5000x256 (shapeCast S1x256 x1 Facts₀.shapeCasts_S256_S1x256) Facts₀.broadcasts_S1x256_S5000x256 (ix2 p q) = x1 (ix1 q) :=
    (LibRowLayout.broadcastTo_1b_ab_apply _ _ p q).trans (LibRowLayout.shapeCast_b_1b_apply x1 _ 0 q)
  unfold k3_pay1
  show elu (shapeCast S5000x256 x0 Facts₀.shapeCasts_S5000x256_S5000x256 (ix2 p q)
      + broadcastTo S5000x256 (shapeCast S1x256 x1 Facts₀.shapeCasts_S256_S1x256) Facts₀.broadcasts_S1x256_S5000x256 (ix2 p q)) = _
  rw [shapeCast_self, e4]

/-- The block's entry is the whole array's, once the aggregate's entry in its block and the bias's entry are the
    entries the result's entry needs. -/
theorem entry3 (A : S100000x256.Idx → EReal) (B : S256.Idx → EReal) (x0 : S5000x256.Idx → EReal) (x1 : S256.Idx → EReal)
    (j : S5000x256.Idx) (i : S100000x256.Idx) (h0 : x0 j = A i) (h1 : x1 (ix1 (j 1)) = B (ix1 (i 1))) :
    elu (x0 j + x1 (ix1 (j 1))) = eluBias A B i := by
  rw [h0, h1]; rfl

/-- Where each window's block sits at grid point `t`: the aggregate's and the result's blocks at block row `t`, the
    bias's one block at the origin. -/
theorem idx_facts3 : ∀ t : Fin cfg3.N, win3_0.index t (0 : Fin 2) = win3_2.index t (0 : Fin 2)
    ∧ win3_0.index t (1 : Fin 2) = 0
    ∧ win3_1.index t (0 : Fin 1) = 0
    ∧ win3_2.index t (1 : Fin 2) = 0
    ∧ win3_2.index t (0 : Fin 2) ≤ 19 :=
  (by decide +kernel : ∀ t : Fin grid3.N, _)

/-- Every block row of the result is some point's. -/
theorem idx_onto3 : ∀ (q0 : Fin 20), ∃ t : Fin cfg3.N, win3_2.index t = ![q0.val, 0] :=
  (by decide +kernel : ∀ (q0 : Fin 20), ∃ t : Fin grid3.N, win3_2.index t = ![q0.val, 0])

section
variable (V : (c : Dev nD) → (b : Ref sig .tc) → Buf (Elt Ideal) ((c : Thread nD τ).loc b))

/-- What point `t` writes back is block `t` of the whole array's activation, of the arrays as the region finds them. -/
theorem flushed3 (c : Dev nD) (t : Fin cfg3.N) :
    (dat3 V c).flushed 2 t = ((cfg3.win 2).blk t).view.read (Elt Ideal) (eluBias (V c main_v57) (V c main_arg5)) := by
  show (cfg3.win 2).cut (grid3.coords t) ((dat3 V c).after 2 t) = _
  rw [after3_2]
  unfold out3_2
  rw [View.canon_unit_zero zero2_3]
  simp only [View.ld_unit_zero (S := S5000x256) zero2_3, View.ld_unit_zero (S := S256) zero1_3]
  obtain ⟨e0, e1, e2, e3, e4⟩ := idx_facts3 t
  funext j
  refine (pay3_apply (iblk3 V c 0 t) (iblk3 V c 1 t) j).trans ?_
  rw [View.read_apply]
  refine entry3 (V c main_v57) (V c main_arg5) (iblk3 V c 0 t) (iblk3 V c 1 t) j _ ?_ ?_
  · have h0 : ((cfg3.win 0).blk t).view.emb j = ((cfg3.win 2).blk t).view.emb j := by
      funext a; apply Fin.ext
      match a with
      | ⟨0, _⟩ => show win3_0.index t (0 : Fin 2) * 5000 + 1 * (j 0).val = win3_2.index t (0 : Fin 2) * 5000 + 1 * (j 0).val; omega
      | ⟨1, _⟩ => show win3_0.index t (1 : Fin 2) * 256 + 1 * (j 1).val = win3_2.index t (1 : Fin 2) * 256 + 1 * (j 1).val; omega
    show V c main_v57 (((cfg3.win 0).blk t).view.emb j) = _
    rw [h0]
  · have h1 : ((cfg3.win 1).blk t).view.emb (ix1 (j 1)) = ix1 ((((cfg3.win 2).blk t).view.emb j) 1) := by
      funext a; apply Fin.ext
      match a with
      | ⟨0, _⟩ => show win3_1.index t (0 : Fin 1) * 256 + 1 * (j 1).val = win3_2.index t (1 : Fin 2) * 256 + 1 * (j 1).val; omega
    show V c main_arg5 (((cfg3.win 1).blk t).view.emb (ix1 (j 1))) = _
    rw [h1]; rfl

/-- An entry of the result is in point `t`'s block iff its row is among the block's 5000 rows. -/
theorem mem_blk3 (t : Fin cfg3.N) (i : S100000x256.Idx) :
    i ∈ ((cfg3.win 2).blk t).view.set ↔ ∀ a : Fin 2, win3_2.index t a * S5000x256.size a ≤ (i a).val ∧ (i a).val < win3_2.index t a * S5000x256.size a + S5000x256.size a := by
  show i ∈ ((View.whole main_v58).slice (win3_2.rect t)).set ↔ _
  rw [View.set_slice_whole, Rect.mem_set_unit]
  exact Iff.rfl

/-- Every entry of the result is in the block of the point that owns its row: row `r` belongs to point `r / 5000`. -/
theorem cover3 (i : S100000x256.Idx) :
    ∃ t : Fin cfg3.N, (cfg3.win 2).flush t = true ∧ i ∈ ((cfg3.win 2).blk t).view.set := by
  have hi0 : (i 0).val < 100000 := (i 0).isLt
  have hi1 : (i 1).val < 256 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 256 ≤ (i 1).val ∧ (i 1).val < win3_2.index t (1 : Fin 2) * 256 + 256; omega

/-- After the region the result array is the activation of the whole array. -/
theorem final3 (c : Dev nD) : (dat3 V c).arrAt 2 cfg3.N = eluBias (V c main_v57) (V c main_arg5) :=
  (dat3 V c).arrAt_eq_of_cover 2 _ (fun t _ => flushed3 V c t) cover3

end

end Cert.KernelIdeal.Val

end
-- ==== Proof.KReg4.lean ====
/-
  Region 4: a dense projection, tiled over the rows.

  Grid point t takes rows 5000·t … 5000·t + 4999 of the activations and the whole weight matrix, multiplies them on
  the matrix unit into a zero accumulator and writes the product to the same rows of the result.  Entry (p, q) of
  that block is Σ_k a(5000·t + p, k) · W(k, q), which is entry (5000·t + p, q) of the whole product; the twenty
  blocks tile the result's rows, so after the region the result array is the whole product.
-/
import proofs.«143275_j523986010649_1_alg».proof.Proof.Gen.KernelIdeal.Frame
import proofs.«143275_j523986010649_1_alg».proof.Proof.Math
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Facts Cert.KernelIdeal.Gen Cert.Gcn

theorem zero2_4 : (![0, 0] : Fin 2 → Nat) = fun _ => 0 := funext fun a => by fin_cases a <;> rfl

/-- The block product's dimension numbers: the second axis of the rows against the first axis of the weights. -/
theorem plain4 : LibPlainDot.Plain dot_S5000x256_S256x256_S5000x256_1_0_0_1_n_n := ⟨rfl, rfl, rfl, rfl, rfl, rfl⟩

/-- The body's value at an entry of its block: narrowing to a shorter float format changes nothing over the extended
    reals, and the matrix unit's product into zero is the plain sum. -/
theorem pay4_apply (x0 : Vec Ideal S5000x256 .f32) (x1 : Vec Ideal S256x256 .f32) (j : S5000x256.Idx) :
    k4_pay1 x0 x1 j = ∑ k : Fin 256, x0 (ix2 (j 0) k) * x1 (ix2 k (j 1)) := by
  obtain ⟨p, q, rfl⟩ : ∃ (p : Fin 5000) (q : Fin 256), j = ix2 p q := ⟨j 0, j 1, eq_ix2 j⟩
  unfold k4_pay1
  rw [shapeCast_self]
  exact plain4.matmul_zero_apply_formats none (truncf .bf16 x0) (truncf .bf16 x1) p q

/-- The block's sums are the whole product's, once each operand's entry in its block is the entry of its array that
    the result's entry needs. -/
theorem rows4 (A : S100000x256.Idx → EReal) (W : S256x256.Idx → EReal) (x0 : S5000x256.Idx → EReal) (x1 : S256x256.Idx → EReal)
    (j : S5000x256.Idx) (i : S100000x256.Idx) (h0 : ∀ k : Fin 256, x0 (ix2 (j 0) k) = A (ix2 (i 0) k))
    (h1 : ∀ k : Fin 256, x1 (ix2 k (j 1)) = W (ix2 k (i 1))) :
    ∑ k : Fin 256, x0 (ix2 (j 0) k) * x1 (ix2 k (j 1)) = mm A W i :=
  Finset.sum_congr rfl fun k _ => by rw [h0 k, h1 k]

/-- Where each window's block sits at grid point `t`: the activations' and the result's blocks at block row `t`, the
    weights' one block at the origin. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 19 :=
  (by decide +kernel : ∀ t : Fin grid4.N, _)

/-- Every block row of the result is some point's. -/
theorem idx_onto4 : ∀ (q0 : Fin 20), ∃ t : Fin cfg4.N, win4_2.index t = ![q0.val, 0] :=
  (by decide +kernel : ∀ (q0 : Fin 20), ∃ t : Fin grid4.N, win4_2.index t = ![q0.val, 0])

section
variable (V : (c : Dev nD) → (b : Ref sig .tc) → Buf (Elt Ideal) ((c : Thread nD τ).loc b))

/-- What point `t` writes back is block `t` of the whole product of the arrays as the region finds them. -/
theorem flushed4 (c : Dev nD) (t : Fin cfg4.N) :
    (dat4 V c).flushed 2 t = ((cfg4.win 2).blk t).view.read (Elt Ideal) (mm (V c main_v58) (V c main_arg6)) := by
  show (cfg4.win 2).cut (grid4.coords t) ((dat4 V c).after 2 t) = _
  rw [after4_2]
  unfold out4_2
  rw [View.canon_unit_zero zero2_4]
  simp only [View.ld_unit_zero (S := S5000x256) zero2_4, View.ld_unit_zero (S := S256x256) zero2_4]
  obtain ⟨e0, e1, e2, e3, e4, e5⟩ := idx_facts4 t
  funext j
  refine (pay4_apply (iblk4 V c 0 t) (iblk4 V c 1 t) j).trans ?_
  rw [View.read_apply]
  refine rows4 (V c main_v58) (V c main_arg6) (iblk4 V c 0 t) (iblk4 V c 1 t) j _ (fun k => ?_) (fun k => ?_)
  · have h0 : ((cfg4.win 0).blk t).view.emb (ix2 (j 0) k) = ix2 ((((cfg4.win 2).blk t).view.emb j) 0) k := by
      funext a; apply Fin.ext
      match a with
      | ⟨0, _⟩ => show win4_0.index t (0 : Fin 2) * 5000 + 1 * (j 0).val = win4_2.index t (0 : Fin 2) * 5000 + 1 * (j 0).val; omega
      | ⟨1, _⟩ => show win4_0.index t (1 : Fin 2) * 256 + 1 * k.val = k.val; omega
    show V c main_v58 (((cfg4.win 0).blk t).view.emb (ix2 (j 0) k)) = _
    rw [h0]; rfl
  · have h1 : ((cfg4.win 1).blk t).view.emb (ix2 k (j 1)) = ix2 k ((((cfg4.win 2).blk t).view.emb j) 1) := by
      funext a; apply Fin.ext
      match a with
      | ⟨0, _⟩ => show win4_1.index t (0 : Fin 2) * 256 + 1 * k.val = k.val; omega
      | ⟨1, _⟩ => show win4_1.index t (1 : Fin 2) * 256 + 1 * (j 1).val = win4_2.index t (1 : Fin 2) * 256 + 1 * (j 1).val; omega
    show V c main_arg6 (((cfg4.win 1).blk t).view.emb (ix2 k (j 1))) = _
    rw [h1]; rfl

/-- An entry of the result is in point `t`'s block iff its row is among the block's 5000 rows. -/
theorem mem_blk4 (t : Fin cfg4.N) (i : S100000x256.Idx) :
    i ∈ ((cfg4.win 2).blk t).view.set ↔ ∀ a : Fin 2, win4_2.index t a * S5000x256.size a ≤ (i a).val ∧ (i a).val < win4_2.index t a * S5000x256.size a + S5000x256.size a := by
  show i ∈ ((View.whole main_v59).slice (win4_2.rect t)).set ↔ _
  rw [View.set_slice_whole, Rect.mem_set_unit]
  exact Iff.rfl

/-- Every entry of the result is in the block of the point that owns its row: row `r` belongs to point `r / 5000`. -/
theorem cover4 (i : S100000x256.Idx) :
    ∃ t : Fin cfg4.N, (cfg4.win 2).flush t = true ∧ i ∈ ((cfg4.win 2).blk t).view.set := by
  have hi0 : (i 0).val < 100000 := (i 0).isLt
  have hi1 : (i 1).val < 256 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 256 ≤ (i 1).val ∧ (i 1).val < win4_2.index t (1 : Fin 2) * 256 + 256; omega

/-- After the region the result array is the whole product. -/
theorem final4 (c : Dev nD) : (dat4 V c).arrAt 2 cfg4.N = mm (V c main_v58) (V c main_arg6) :=
  (dat4 V c).arrAt_eq_of_cover 2 _ (fun t _ => flushed4 V c t) cover4

end

end Cert.KernelIdeal.Val

end
-- ==== Proof.KReg5.lean ====
/-
  Region 5: the bias and the activation, tiled over the rows.

  Grid point t takes rows 5000·t … 5000·t + 4999 of the aggregate and the whole bias vector, adds the bias along
  every row and applies the exponential linear unit entry by entry, writing the same rows of the result.  Entry
  (p, q) of that block is elu(a(5000·t + p, q) + b(q)), which is entry (5000·t + p, q) of the whole array's
  activation; the twenty blocks tile the rows, so after the region the result is the activation of the whole array.
-/
import proofs.«143275_j523986010649_1_alg».proof.Proof.Gen.KernelIdeal.Frame
import proofs.«143275_j523986010649_1_alg».proof.Proof.Math
import proofs.«143275_j523986010649_1_alg».proof.Proof.LibRowLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Facts Cert.KernelIdeal.Gen Cert.Gcn

theorem zero2_5 : (![0, 0] : Fin 2 → Nat) = fun _ => 0 := funext fun a => by fin_cases a <;> rfl
theorem zero1_5 : (![0] : Fin 1 → Nat) = fun _ => 0 := funext fun a => by fin_cases a; rfl

/-- The body's value at an entry of its block: the bias vector, viewed as one row and spread over the rows, is read
    at the entry's column; the rest is entry by entry. -/
theorem pay5_apply (x0 : S5000x256.Idx → EReal) (x1 : S256.Idx → EReal) (j : S5000x256.Idx) :
    k5_pay1 (F := Ideal) x0 x1 j = elu (x0 j + x1 (ix1 (j 1))) := by
  obtain ⟨p, q, rfl⟩ : ∃ (p : Fin 5000) (q : Fin 256), j = ix2 p q := ⟨j 0, j 1, eq_ix2 j⟩
  have e4 : broadcastTo S5000x256 (shapeCast S1x256 x1 Facts₀.shapeCasts_S256_S1x256) Facts₀.broadcasts_S1x256_S5000x256 (ix2 p q) = x1 (ix1 q) :=
    (LibRowLayout.broadcastTo_1b_ab_apply _ _ p q).trans (LibRowLayout.shapeCast_b_1b_apply x1 _ 0 q)
  unfold k5_pay1
  show elu (shapeCast S5000x256 x0 Facts₀.shapeCasts_S5000x256_S5000x256 (ix2 p q)
      + broadcastTo S5000x256 (shapeCast S1x256 x1 Facts₀.shapeCasts_S256_S1x256) Facts₀.broadcasts_S1x256_S5000x256 (ix2 p q)) = _
  rw [shapeCast_self, e4]

/-- The block's entry is the whole array's, once the aggregate's entry in its block and the bias's entry are the
    entries the result's entry needs. -/
theorem entry5 (A : S100000x256.Idx → EReal) (B : S256.Idx → EReal) (x0 : S5000x256.Idx → EReal) (x1 : S256.Idx → EReal)
    (j : S5000x256.Idx) (i : S100000x256.Idx) (h0 : x0 j = A i) (h1 : x1 (ix1 (j 1)) = B (ix1 (i 1))) :
    elu (x0 j + x1 (ix1 (j 1))) = eluBias A B i := by
  rw [h0, h1]; rfl

/-- Where each window's block sits at grid point `t`: the aggregate's and the result's blocks at block row `t`, the
    bias's one block at the origin. -/
theorem idx_facts5 : ∀ t : Fin cfg5.N, win5_0.index t (0 : Fin 2) = win5_2.index t (0 : Fin 2)
    ∧ win5_0.index t (1 : Fin 2) = 0
    ∧ win5_1.index t (0 : Fin 1) = 0
    ∧ win5_2.index t (1 : Fin 2) = 0
    ∧ win5_2.index t (0 : Fin 2) ≤ 19 :=
  (by decide +kernel : ∀ t : Fin grid5.N, _)

/-- Every block row of the result is some point's. -/
theorem idx_onto5 : ∀ (q0 : Fin 20), ∃ t : Fin cfg5.N, win5_2.index t = ![q0.val, 0] :=
  (by decide +kernel : ∀ (q0 : Fin 20), ∃ t : Fin grid5.N, win5_2.index t = ![q0.val, 0])

section
variable (V : (c : Dev nD) → (b : Ref sig .tc) → Buf (Elt Ideal) ((c : Thread nD τ).loc b))

/-- What point `t` writes back is block `t` of the whole array's activation, of the arrays as the region finds them. -/
theorem flushed5 (c : Dev nD) (t : Fin cfg5.N) :
    (dat5 V c).flushed 2 t = ((cfg5.win 2).blk t).view.read (Elt Ideal) (eluBias (V c main_v72) (V c main_arg7)) := by
  show (cfg5.win 2).cut (grid5.coords t) ((dat5 V c).after 2 t) = _
  rw [after5_2]
  unfold out5_2
  rw [View.canon_unit_zero zero2_5]
  simp only [View.ld_unit_zero (S := S5000x256) zero2_5, View.ld_unit_zero (S := S256) zero1_5]
  obtain ⟨e0, e1, e2, e3, e4⟩ := idx_facts5 t
  funext j
  refine (pay5_apply (iblk5 V c 0 t) (iblk5 V c 1 t) j).trans ?_
  rw [View.read_apply]
  refine entry5 (V c main_v72) (V c main_arg7) (iblk5 V c 0 t) (iblk5 V c 1 t) j _ ?_ ?_
  · have h0 : ((cfg5.win 0).blk t).view.emb j = ((cfg5.win 2).blk t).view.emb j := by
      funext a; apply Fin.ext
      match a with
      | ⟨0, _⟩ => show win5_0.index t (0 : Fin 2) * 5000 + 1 * (j 0).val = win5_2.index t (0 : Fin 2) * 5000 + 1 * (j 0).val; omega
      | ⟨1, _⟩ => show win5_0.index t (1 : Fin 2) * 256 + 1 * (j 1).val = win5_2.index t (1 : Fin 2) * 256 + 1 * (j 1).val; omega
    show V c main_v72 (((cfg5.win 0).blk t).view.emb j) = _
    rw [h0]
  · have h1 : ((cfg5.win 1).blk t).view.emb (ix1 (j 1)) = ix1 ((((cfg5.win 2).blk t).view.emb j) 1) := by
      funext a; apply Fin.ext
      match a with
      | ⟨0, _⟩ => show win5_1.index t (0 : Fin 1) * 256 + 1 * (j 1).val = win5_2.index t (1 : Fin 2) * 256 + 1 * (j 1).val; omega
    show V c main_arg7 (((cfg5.win 1).blk t).view.emb (ix1 (j 1))) = _
    rw [h1]; rfl

/-- An entry of the result is in point `t`'s block iff its row is among the block's 5000 rows. -/
theorem mem_blk5 (t : Fin cfg5.N) (i : S100000x256.Idx) :
    i ∈ ((cfg5.win 2).blk t).view.set ↔ ∀ a : Fin 2, win5_2.index t a * S5000x256.size a ≤ (i a).val ∧ (i a).val < win5_2.index t a * S5000x256.size a + S5000x256.size a := by
  show i ∈ ((View.whole main_v73).slice (win5_2.rect t)).set ↔ _
  rw [View.set_slice_whole, Rect.mem_set_unit]
  exact Iff.rfl

/-- Every entry of the result is in the block of the point that owns its row: row `r` belongs to point `r / 5000`. -/
theorem cover5 (i : S100000x256.Idx) :
    ∃ t : Fin cfg5.N, (cfg5.win 2).flush t = true ∧ i ∈ ((cfg5.win 2).blk t).view.set := by
  have hi0 : (i 0).val < 100000 := (i 0).isLt
  have hi1 : (i 1).val < 256 := (i 1).isLt
  obtain ⟨t, ht⟩ := idx_onto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 256 ≤ (i 1).val ∧ (i 1).val < win5_2.index t (1 : Fin 2) * 256 + 256; omega

/-- After the region the result array is the activation of the whole array. -/
theorem final5 (c : Dev nD) : (dat5 V c).arrAt 2 cfg5.N = eluBias (V c main_v72) (V c main_arg7) :=
  (dat5 V c).arrAt_eq_of_cover 2 _ (fun t _ => flushed5 V c t) cover5

end

end Cert.KernelIdeal.Val

end
-- ==== Proof.KVal.lean ====
/-
  The kernel program's result as one term of its arguments, over the extended reals.

  Follow the buffers through the twelve segments.  The stretches before the first region leave the edge rows and the
  normalisation; a projection region leaves the whole product of its two input arrays; the stretch after it leaves
  the aggregate of that product along the edges; an activation region leaves the unit of (aggregate + bias).  A
  region changes only its output array and a stretch only its own fresh buffers, so the edge rows, the normalisation
  and the later layers' arguments are still what they were when a later segment reads them.  Three layers composed
  is the result.
-/
import proofs.«143275_j523986010649_1_alg».proof.Proof.KRun
import proofs.«143275_j523986010649_1_alg».proof.Proof.KChain
import proofs.«143275_j523986010649_1_alg».proof.Proof.KReg0
import proofs.«143275_j523986010649_1_alg».proof.Proof.KReg1
import proofs.«143275_j523986010649_1_alg».proof.Proof.KReg2
import proofs.«143275_j523986010649_1_alg».proof.Proof.KReg3
import proofs.«143275_j523986010649_1_alg».proof.Proof.KReg4
import proofs.«143275_j523986010649_1_alg».proof.Proof.KReg5

set_option maxRecDepth 16384

noncomputable section

namespace Cert.KernelIdeal.Val

open Idealize.ShloMosaic Idealize.ShloMosaic.TcCoe Idealize.ShloMosaic.StableHlo Idealize.SL.Sem
open Cert.KernelIdeal Cert.KernelIdeal.Gen Cert.Gcn

/-- One aggregation along the edge list `ei`: gather at the sources, scale by the normalisation, add into the targets. -/
abbrev aggr (ei : (⟨S2x600000, .i32⟩ : BufTy).Contents (Elt Ideal)) (h : S100000x256.Idx → EReal) : S100000x256.Idx → EReal :=
  Tab.agg (F := Ideal) (Tab.src ei) (Tab.dst ei) (Tab.nrm ei) h

/-- One layer: project, aggregate, add the bias, apply the unit. -/
abbrev layer {K : Nat} (ei : (⟨S2x600000, .i32⟩ : BufTy).Contents (Elt Ideal)) (h : (⟨2, ![100000, K]⟩ : Shape).Idx → EReal)
    (W : (⟨2, ![K, 256]⟩ : Shape).Idx → EReal) (b : S256.Idx → EReal) : S100000x256.Idx → EReal :=
  eluBias (N := 100000) (D := 256) (aggr ei (mm (A := 100000) (K := K) (B := 256) h W)) b

/-- The three layers composed, as the kernel program computes them. -/
def net (x : S100000x64.Idx → EReal) (ei : (⟨S2x600000, .i32⟩ : BufTy).Contents (Elt Ideal))
    (W1 : S64x256.Idx → EReal) (b1 : S256.Idx → EReal) (W2 : S256x256.Idx → EReal) (b2 : S256.Idx → EReal)
    (W3 : S256x256.Idx → EReal) (b3 : S256.Idx → EReal) : S100000x256.Idx → EReal :=
  layer ei (layer ei (layer ei x W1 b1) W2 b2) W3 b3

variable (m : (ℓ : Loc nD τ sig) → Buf (Elt Ideal) ℓ) (ρ : Dev nD → PrngReg) (c : Dev nD)

/-! ## What each segment leaves alone -/

/-- The stretches before the first region leave the argument arrays as launched. -/
theorem at3 {b : Ref sig .tc}
    (hb : b = main_arg0 ∨ b = main_arg2 ∨ b = main_arg3 ∨ b = main_arg4 ∨ b = main_arg5 ∨ b = main_arg6 ∨ b = main_arg7) :
    W3 m ρ c (Proc.devRef .tc b) = m ((c : Thread nD τ).loc b) :=
  kept0 (W0 m ρ c) hb

/-- The first projection writes only its output array. -/
theorem up4 {b : Ref sig .tc} (hb : b = main_v1 ∨ b = main_v3 ∨ b = main_v28 ∨ b = main_arg3 ∨ b = main_arg4 ∨ b = main_arg5 ∨ b = main_arg6 ∨ b = main_arg7) :
    W4 m ρ c (Proc.devRef .tc b) = W3 m ρ c (Proc.devRef .tc b) := by
  rcases hb with rfl | rfl | rfl | rfl | rfl | rfl | rfl | rfl <;> exact W4_of_ne m ρ c _ (by decide)

/-- The first aggregation writes only its own fresh buffers. -/
theorem up5 {b : Ref sig .tc} (hb : b = main_v1 ∨ b = main_v3 ∨ b = main_v28 ∨ b = main_arg3 ∨ b = main_arg4 ∨ b = main_arg5 ∨ b = main_arg6 ∨ b = main_arg7) :
    W5 m ρ c (Proc.devRef .tc b) = W4 m ρ c (Proc.devRef .tc b) :=
  kept1 (W4 m ρ c) hb

/-- The first activation writes only its output array. -/
theorem up6 {b : Ref sig .tc} (hb : b = main_v1 ∨ b = main_v3 ∨ b = main_v28 ∨ b = main_arg4 ∨ b = main_arg5 ∨ b = main_arg6 ∨ b = main_arg7) :
    W6 m ρ c (Proc.devRef .tc b) = W5 m ρ c (Proc.devRef .tc b) := by
  rcases hb with rfl | rfl | rfl | rfl | rfl | rfl | rfl <;> exact W6_of_ne m ρ c _ (by decide)

/-- The second projection writes only its output array. -/
theorem up7 {b : Ref sig .tc} (hb : b = main_v1 ∨ b = main_v3 ∨ b = main_v28 ∨ b = main_arg5 ∨ b = main_arg6 ∨ b = main_arg7) :
    W7 m ρ c (Proc.devRef .tc b) = W6 m ρ c (Proc.devRef .tc b) := by
  rcases hb with rfl | rfl | rfl | rfl | rfl | rfl <;> exact W7_of_ne m ρ c _ (by decide)

/-- The second aggregation writes only its own fresh buffers. -/
theorem up8 {b : Ref sig .tc} (hb : b = main_v1 ∨ b = main_v3 ∨ b = main_v28 ∨ b = main_arg5 ∨ b = main_arg6 ∨ b = main_arg7) :
    W8 m ρ c (Proc.devRef .tc b) = W7 m ρ c (Proc.devRef .tc b) :=
  kept3 (W7 m ρ c) hb

/-- The second activation writes only its output array. -/
theorem up9 {b : Ref sig .tc} (hb : b = main_v1 ∨ b = main_v3 ∨ b = main_v28 ∨ b = main_arg6 ∨ b = main_arg7) :
    W9 m ρ c (Proc.devRef .tc b) = W8 m ρ c (Proc.devRef .tc b) := by
  rcases hb with rfl | rfl | rfl | rfl | rfl <;> exact W9_of_ne m ρ c _ (by decide)

/-- The third projection writes only its output array. -/
theorem up10 {b : Ref sig .tc} (hb : b = main_v1 ∨ b = main_v3 ∨ b = main_v28 ∨ b = main_arg7) :
    W10 m ρ c (Proc.devRef .tc b) = W9 m ρ c (Proc.devRef .tc b) := by
  rcases hb with rfl | rfl | rfl | rfl <;> exact W10_of_ne m ρ c _ (by decide)

/-- The third aggregation leaves the last bias alone. -/
theorem up11 : W11 m ρ c (Proc.devRef .tc main_arg7) = W10 m ρ c (Proc.devRef .tc main_arg7) :=
  kept5 (W10 m ρ c)

/-! ## The edge rows and the normalisation at the three aggregations -/

/-- At the first region's entry. -/
theorem edges3 : W3 m ρ c (Proc.devRef .tc main_v1) = Tab.src (m ((c : Thread nD τ).loc main_arg1))
    ∧ W3 m ρ c (Proc.devRef .tc main_v3) = Tab.dst (m ((c : Thread nD τ).loc main_arg1))
    ∧ W3 m ρ c (Proc.devRef .tc main_v28) = Tab.nrm (m ((c : Thread nD τ).loc main_arg1)) :=
  ⟨src_eq (W0 m ρ c), dst_eq (W0 m ρ c), nrm_eq (W0 m ρ c)⟩

/-- Where the first aggregation reads them. -/
theorem edges4 {b : Ref sig .tc} (hb : b = main_v1 ∨ b = main_v3 ∨ b = main_v28) :
    W4 m ρ c (Proc.devRef .tc b) = W3 m ρ c (Proc.devRef .tc b) := by
  rcases hb with rfl | rfl | rfl <;> exact up4 m ρ c (by decide)

/-- Where the second aggregation reads them. -/
theorem edges7 {b : Ref sig .tc} (hb : b = main_v1 ∨ b = main_v3 ∨ b = main_v28) :
    W7 m ρ c (Proc.devRef .tc b) = W3 m ρ c (Proc.devRef .tc b) := by
  rcases hb with rfl | rfl | rfl <;>
    exact (up7 m ρ c (by decide)).trans ((up6 m ρ c (by decide)).trans ((up5 m ρ c (by decide)).trans (up4 m ρ c (by decide))))

/-- Where the third aggregation reads them. -/
theorem edges10 {b : Ref sig .tc} (hb : b = main_v1 ∨ b = main_v3 ∨ b = main_v28) :
    W10 m ρ c (Proc.devRef .tc b) = W3 m ρ c (Proc.devRef .tc b) := by
  rcases hb with rfl | rfl | rfl <;>
    exact (up10 m ρ c (by decide)).trans ((up9 m ρ c (by decide)).trans ((up8 m ρ c (by decide)).trans
      ((up7 m ρ c (by decide)).trans ((up6 m ρ c (by decide)).trans ((up5 m ρ c (by decide)).trans (up4 m ρ c (by decide)))))))

/-! ## The layers' arguments where their regions read them -/

theorem bias1 : W5 m ρ c (Proc.devRef .tc main_arg3) = m ((c : Thread nD τ).loc main_arg3) :=
  (up5 m ρ c (by decide)).trans ((up4 m ρ c (by decide)).trans (at3 m ρ c (by decide)))
theorem weight2 : W6 m ρ c (Proc.devRef .tc main_arg4) = m ((c : Thread nD τ).loc main_arg4) :=
  (up6 m ρ c (by decide)).trans ((up5 m ρ c (by decide)).trans ((up4 m ρ c (by decide)).trans (at3 m ρ c (by decide))))
theorem bias2 : W8 m ρ c (Proc.devRef .tc main_arg5) = m ((c : Thread nD τ).loc main_arg5) :=
  (up8 m ρ c (by decide)).trans ((up7 m ρ c (by decide)).trans ((up6 m ρ c (by decide)).trans ((up5 m ρ c (by decide)).trans
    ((up4 m ρ c (by decide)).trans (at3 m ρ c (by decide))))))
theorem weight3 : W9 m ρ c (Proc.devRef .tc main_arg6) = m ((c : Thread nD τ).loc main_arg6) :=
  (up9 m ρ c (by decide)).trans ((up8 m ρ c (by decide)).trans ((up7 m ρ c (by decide)).trans ((up6 m ρ c (by decide)).trans
    ((up5 m ρ c (by decide)).trans ((up4 m ρ c (by decide)).trans (at3 m ρ c (by decide)))))))
theorem bias3 : W11 m ρ c (Proc.devRef .tc main_arg7) = m ((c : Thread nD τ).loc main_arg7) :=
  (up11 m ρ c).trans ((up10 m ρ c (by decide)).trans ((up9 m ρ c (by decide)).trans ((up8 m ρ c (by decide)).trans
    ((up7 m ρ c (by decide)).trans ((up6 m ρ c (by decide)).trans ((up5 m ρ c (by decide)).trans
      ((up4 m ρ c (by decide)).trans (at3 m ρ c (by decide)))))))))

/-! ## The result, layer by layer -/

/-- After the first projection: x · W1. -/
theorem proj1 : W4 m ρ c (Proc.devRef .tc main_v29)
    = mm (A := 100000) (K := 64) (B := 256) (m ((c : Thread nD τ).loc main_arg0)) (m ((c : Thread nD τ).loc main_arg2)) := by
  refine (W4_arr m ρ c 2).trans ((final0 (V3 m ρ) c).trans ?_)
  show mm (A := 100000) (K := 64) (B := 256) (W3 m ρ c (Proc.devRef .tc main_arg0)) (W3 m ρ c (Proc.devRef .tc main_arg2)) = _
  rw [at3 m ρ c (b := main_arg0) (by decide), at3 m ρ c (b := main_arg2) (by decide)]

/-- After the first aggregation: the aggregate of x · W1. -/
theorem aggr1 : W5 m ρ c (Proc.devRef .tc main_v42)
    = aggr (m ((c : Thread nD τ).loc main_arg1)) (mm (A := 100000) (K := 64) (B := 256) (m ((c : Thread nD τ).loc main_arg0)) (m ((c : Thread nD τ).loc main_arg2))) := by
  refine (agg1_eq (W4 m ρ c)).trans ?_
  rw [edges4 m ρ c (b := main_v1) (by decide), edges4 m ρ c (b := main_v3) (by decide), edges4 m ρ c (b := main_v28) (by decide),
    (edges3 m ρ c).1, (edges3 m ρ c).2.1, (edges3 m ρ c).2.2, proj1 m ρ c]

/-- After the first activation: layer 1. -/
theorem act1 : W6 m ρ c (Proc.devRef .tc main_v43) = (layer (m ((c : Thread nD τ).loc main_arg1)) (m ((c : Thread nD τ).loc main_arg0)) (m ((c : Thread nD τ).loc main_arg2)) (m ((c : Thread nD τ).loc main_arg3))) := by
  refine (W6_arr m ρ c 2).trans ((final1 (V5 m ρ) c).trans ?_)
  show eluBias (N := 100000) (D := 256) (W5 m ρ c (Proc.devRef .tc main_v42)) (W5 m ρ c (Proc.devRef .tc main_arg3)) = _
  rw [aggr1 m ρ c, bias1 m ρ c]

/-- After the second projection: layer 1 · W2. -/
theorem proj2 : W7 m ρ c (Proc.devRef .tc main_v44) = mm (A := 100000) (K := 256) (B := 256) (layer (m ((c : Thread nD τ).loc main_arg1)) (m ((c : Thread nD τ).loc main_arg0)) (m ((c : Thread nD τ).loc main_arg2)) (m ((c : Thread nD τ).loc main_arg3))) (m ((c : Thread nD τ).loc main_arg4)) := by
  refine (W7_arr m ρ c 2).trans ((final2 (V6 m ρ) c).trans ?_)
  show mm (A := 100000) (K := 256) (B := 256) (W6 m ρ c (Proc.devRef .tc main_v43)) (W6 m ρ c (Proc.devRef .tc main_arg4)) = _
  rw [act1 m ρ c, weight2 m ρ c]

/-- After the second aggregation. -/
theorem aggr2 : W8 m ρ c (Proc.devRef .tc main_v57)
    = aggr (m ((c : Thread nD τ).loc main_arg1)) (mm (A := 100000) (K := 256) (B := 256) (layer (m ((c : Thread nD τ).loc main_arg1)) (m ((c : Thread nD τ).loc main_arg0)) (m ((c : Thread nD τ).loc main_arg2)) (m ((c : Thread nD τ).loc main_arg3))) (m ((c : Thread nD τ).loc main_arg4))) := by
  refine (agg3_eq (W7 m ρ c)).trans ?_
  rw [edges7 m ρ c (b := main_v1) (by decide), edges7 m ρ c (b := main_v3) (by decide), edges7 m ρ c (b := main_v28) (by decide),
    (edges3 m ρ c).1, (edges3 m ρ c).2.1, (edges3 m ρ c).2.2, proj2 m ρ c]

/-- After the second activation: layer 2. -/
theorem act2 : W9 m ρ c (Proc.devRef .tc main_v58) = (layer (m ((c : Thread nD τ).loc main_arg1)) (layer (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) := by
  refine (W9_arr m ρ c 2).trans ((final3 (V8 m ρ) c).trans ?_)
  show eluBias (N := 100000) (D := 256) (W8 m ρ c (Proc.devRef .tc main_v57)) (W8 m ρ c (Proc.devRef .tc main_arg5)) = _
  rw [aggr2 m ρ c, bias2 m ρ c]

/-- After the third projection: layer 2 · W3. -/
theorem proj3 : W10 m ρ c (Proc.devRef .tc main_v59) = mm (A := 100000) (K := 256) (B := 256) (layer (m ((c : Thread nD τ).loc main_arg1)) (layer (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6)) := by
  refine (W10_arr m ρ c 2).trans ((final4 (V9 m ρ) c).trans ?_)
  show mm (A := 100000) (K := 256) (B := 256) (W9 m ρ c (Proc.devRef .tc main_v58)) (W9 m ρ c (Proc.devRef .tc main_arg6)) = _
  rw [act2 m ρ c, weight3 m ρ c]

/-- After the third aggregation. -/
theorem aggr3 : W11 m ρ c (Proc.devRef .tc main_v72)
    = aggr (m ((c : Thread nD τ).loc main_arg1)) (mm (A := 100000) (K := 256) (B := 256) (layer (m ((c : Thread nD τ).loc main_arg1)) (layer (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6))) := by
  refine (agg5_eq (W10 m ρ c)).trans ?_
  rw [edges10 m ρ c (b := main_v1) (by decide), edges10 m ρ c (b := main_v3) (by decide), edges10 m ρ c (b := main_v28) (by decide),
    (edges3 m ρ c).1, (edges3 m ρ c).2.1, (edges3 m ρ c).2.2, proj3 m ρ c]

/-- THE RESULT: after the last region the output array holds the three layers composed, of the arguments as launched. -/
theorem result : W12 m ρ c (Proc.devRef .tc main_v73)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) := by
  refine (W12_arr m ρ c 2).trans ((final5 (V11 m ρ) c).trans ?_)
  show eluBias (N := 100000) (D := 256) (W11 m ρ c (Proc.devRef .tc main_v72)) (W11 m ρ c (Proc.devRef .tc main_arg7)) = _
  rw [aggr3 m ρ c, bias3 m ρ c]
  rfl

end Cert.KernelIdeal.Val

end
-- ==== Proof.RTab.lean ====
/- A table, no argument: each definition is the printed operations of one stretch, one let-line per operation, in the printed order. -/
import proofs.«143275_j523986010649_1_alg».proof.Proof.Gen.ReferenceIdeal
import Idealize.ShloMosaic.Lib.StableHlo.Run

noncomputable section

namespace Cert.ReferenceIdeal.Tab

open Idealize.ShloMosaic Cert.ReferenceIdeal Cert.ReferenceIdeal.Facts₀ Cert.ReferenceIdeal.Facts

variable {F : FTy → Type} [FloatOps F]

/-- The edge lists and the edges' normalisation. -/
abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_cst (constant S_ .f32 0x3F800000#32),
    StableHlo.unary main_cst main_v4 (broadcastInDim S600000 ![] bcast_S_S600000 : (⟨S_, .f32⟩ : BufTy).Contents (Elt F) → (⟨S600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S600000x1 ![0] bcast_S600000_S600000x1_0 : (⟨S600000, .i32⟩ : BufTy).Contents (Elt F) → (⟨S600000x1, .i32⟩ : BufTy).Contents (Elt F)),
    StableHlo.ternary main_v5 main_v6 main_v4 main_v7 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v7 main_v10 main_v11 (maximumf : (⟨S100000, .f32⟩ : BufTy).Contents (Elt F) → (⟨S100000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S100000 ![] bcast_S_S100000),
    StableHlo.TRef.ternary (.of main_v9) (.of main_v12) main_call0.v1 main_call0.v2 select,
    StableHlo.nullary main_c (constantI S_ 32 0#32),
    StableHlo.unary main_c main_v14 (broadcastInDim S600000 ![] bcast_S_S600000 : (⟨S_, .i32⟩ : BufTy).Contents (Elt F) → (⟨S600000, .i32⟩ : BufTy).Contents (Elt F)),
    StableHlo.binary main_v1 main_v14 main_v15 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 100000#32),
    StableHlo.unary main_c_4 main_v16 (broadcastInDim S600000 ![] bcast_S_S600000 : (⟨S_, .i32⟩ : BufTy).Contents (Elt F) → (⟨S600000, .i32⟩ : BufTy).Contents (Elt F)),
    StableHlo.binary main_v1 main_v16 main_v17 (addi : (⟨S600000, .i32⟩ : BufTy).Contents (Elt F) → (⟨S600000, .i32⟩ : BufTy).Contents (Elt F) → (⟨S600000, .i32⟩ : BufTy).Contents (Elt F)),
    StableHlo.ternary main_v15 main_v17 main_v1 main_v18 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v18 main_v19 (broadcastInDim S600000x1 ![0] bcast_S600000_S600000x1_0 : (⟨S600000, .i32⟩ : BufTy).Contents (Elt F) → (⟨S600000x1, .i32⟩ : BufTy).Contents (Elt F)),
    StableHlo.binary main_v13 main_v19 main_v20 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.nullary main_c_5 (constantI S_ 32 0#32),
    StableHlo.unary main_c_5 main_v21 (broadcastInDim S600000 ![] bcast_S_S600000 : (⟨S_, .i32⟩ : BufTy).Contents (Elt F) → (⟨S600000, .i32⟩ : BufTy).Contents (Elt F)),
    StableHlo.binary main_v3 main_v21 main_v22 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 100000#32),
    StableHlo.unary main_c_6 main_v23 (broadcastInDim S600000 ![] bcast_S_S600000 : (⟨S_, .i32⟩ : BufTy).Contents (Elt F) → (⟨S600000, .i32⟩ : BufTy).Contents (Elt F)),
    StableHlo.binary main_v3 main_v23 main_v24 (addi : (⟨S600000, .i32⟩ : BufTy).Contents (Elt F) → (⟨S600000, .i32⟩ : BufTy).Contents (Elt F) → (⟨S600000, .i32⟩ : BufTy).Contents (Elt F)),
    StableHlo.ternary main_v22 main_v24 main_v3 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v25 main_v26 (broadcastInDim S600000x1 ![0] bcast_S600000_S600000x1_0 : (⟨S600000, .i32⟩ : BufTy).Contents (Elt F) → (⟨S600000x1, .i32⟩ : BufTy).Contents (Elt F)),
    StableHlo.binary main_v13 main_v26 main_v27 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.binary main_v20 main_v27 main_v28 (mulf : (⟨S600000, .f32⟩ : BufTy).Contents (Elt F) → (⟨S600000, .f32⟩ : BufTy).Contents (Elt F) → (⟨S600000, .f32⟩ : BufTy).Contents (Elt F)) ]
/-- Each touches TensorCore references only. -/
theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- Layer 1. -/
abbrev ops1 : List (HloOp τ sig (Elt F)) :=
  [ StableHlo.binary main_arg0 main_arg2 main_v29 ((fun l r => Host.dotGeneral dot_S100000x64_S64x256_S100000x256_1_0_0_1_n_n none l r) : (⟨S100000x64, .f32⟩ : BufTy).Contents (Elt F) → (⟨S64x256, .f32⟩ : BufTy).Contents (Elt F) → (⟨S100000x256, .f32⟩ : BufTy).Contents (Elt F)),
    StableHlo.nullary main_c_7 (constantI S_ 32 0#32),
    StableHlo.unary main_c_7 main_v30 (broadcastInDim S600000 ![] bcast_S_S600000 : (⟨S_, .i32⟩ : BufTy).Contents (Elt F) → (⟨S600000, .i32⟩ : BufTy).Contents (Elt F)),
    StableHlo.binary main_v1 main_v30 main_v31 (cmpi .slt : (⟨S600000, .i32⟩ : BufTy).Contents (Elt F) → (⟨S600000, .i32⟩ : BufTy).Contents (Elt F) → (⟨S600000, .i1⟩ : BufTy).Contents (Elt F)),
    StableHlo.nullary main_c_8 (constantI S_ 32 100000#32),
    StableHlo.unary main_c_8 main_v32 (broadcastInDim S600000 ![] bcast_S_S600000 : (⟨S_, .i32⟩ : BufTy).Contents (Elt F) → (⟨S600000, .i32⟩ : BufTy).Contents (Elt F)),
    StableHlo.binary main_v1 main_v32 main_v33 (addi : (⟨S600000, .i32⟩ : BufTy).Contents (Elt F) → (⟨S600000, .i32⟩ : BufTy).Contents (Elt F) → (⟨S600000, .i32⟩ : BufTy).Contents (Elt F)),
    StableHlo.ternary main_v31 main_v33 main_v1 main_v34 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v34 main_v35 (broadcastInDim S600000x1 ![0] bcast_S600000_S600000x1_0 : (⟨S600000, .i32⟩ : BufTy).Contents (Elt F) → (⟨S600000x1, .i32⟩ : BufTy).Contents (Elt F)),
    StableHlo.binary main_v29 main_v35 main_v36 ((fun x i => Host.gather gather_S100000x256_S600000x1_S600000x256_1_0_n_n_0_1_1256 x i) : (⟨S100000x256, .f32⟩ : BufTy).Contents (Elt F) → (⟨S600000x1, .i32⟩ : BufTy).Contents (Elt F) → (⟨S600000x256, .f32⟩ : BufTy).Contents (Elt F)),
    StableHlo.unary main_v28 main_v37 (broadcastInDim S600000x1 ![0] bcast_S600000_S600000x1_0 : (⟨S600000, .f32⟩ : BufTy).Contents (Elt F) → (⟨S600000x1, .f32⟩ : BufTy).Contents (Elt F)),
    StableHlo.unary main_v37 main_v38 (broadcastInDim S600000x256 ![0, 1] bcast_S600000x1_S600000x256_0_1 : (⟨S600000x1, .f32⟩ : BufTy).Contents (Elt F) → (⟨S600000x256, .f32⟩ : BufTy).Contents (Elt F)),
    StableHlo.binary main_v36 main_v38 main_v39 (mulf : (⟨S600000x256, .f32⟩ : BufTy).Contents (Elt F) → (⟨S600000x256, .f32⟩ : BufTy).Contents (Elt F) → (⟨S600000x256, .f32⟩ : BufTy).Contents (Elt F)),
    StableHlo.nullary main_cst_9 (constant S_ .f32 0x00000000#32),
    StableHlo.unary main_cst_9 main_v40 (broadcastInDim S100000x256 ![] bcast_S_S100000x256 : (⟨S_, .f32⟩ : BufTy).Contents (Elt F) → (⟨S100000x256, .f32⟩ : BufTy).Contents (Elt F)),
    StableHlo.unary main_v3 main_v41 (broadcastInDim S600000x1 ![0] bcast_S600000_S600000x1_0 : (⟨S600000, .i32⟩ : BufTy).Contents (Elt F) → (⟨S600000x1, .i32⟩ : BufTy).Contents (Elt F)),
    StableHlo.ternary main_v40 main_v41 main_v39 main_v42 ((fun x i u => Host.scatterAdd scatter_S100000x256_S600000x1_S600000x256_1_0_0_1 x i u) : (⟨S100000x256, .f32⟩ : BufTy).Contents (Elt F) → (⟨S600000x1, .i32⟩ : BufTy).Contents (Elt F) → (⟨S600000x256, .f32⟩ : BufTy).Contents (Elt F) → (⟨S100000x256, .f32⟩ : BufTy).Contents (Elt F)),
    StableHlo.unary main_arg3 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S100000x256 ![0, 1] bcast_S1x256_S100000x256_0_1 : (⟨S1x256, .f32⟩ : BufTy).Contents (Elt F) → (⟨S100000x256, .f32⟩ : BufTy).Contents (Elt F)),
    StableHlo.binary main_v42 main_v44 main_v45 (addf : (⟨S100000x256, .f32⟩ : BufTy).Contents (Elt F) → (⟨S100000x256, .f32⟩ : BufTy).Contents (Elt F) → (⟨S100000x256, .f32⟩ : BufTy).Contents (Elt F)),
    StableHlo.TRef.nullary main_call1.cst (constant S_ .f32 0x00000000#32),
    StableHlo.TRef.unary main_call1.cst main_call1.v0 (broadcastInDim S100000x256 ![] bcast_S_S100000x256),
    StableHlo.TRef.binary (.of main_v45) main_call1.v0 main_call1.v1 (cmpf .ogt),
    StableHlo.TRef.nullary main_call1.cst_0 (constant S_ .f32 0x00000000#32),
    StableHlo.TRef.unary main_call1.cst_0 main_call1.v2 (broadcastInDim S100000x256 ![] bcast_S_S100000x256),
    StableHlo.TRef.binary (.of main_v45) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x256 ![] bcast_S_S100000x256),
    StableHlo.TRef.ternary main_call1.v3 main_call1.call0.v1 (.of main_v45) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x256 ![] bcast_S_S100000x256),
    StableHlo.TRef.binary main_call1.v6 main_call1.v5 main_call1.v7 mulf,
    StableHlo.TRef.ternary main_call1.v1 (.of main_v45) main_call1.v7 main_call1.call1.v0 select ]
/-- Each touches TensorCore references only. -/
theorem ops1_sub : (ops1 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩

/-- Layer 2. -/
abbrev ops2 : List (HloOp τ sig (Elt F)) :=
  [ StableHlo.binary main_v46 main_arg4 main_v47 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.nullary main_c_10 (constantI S_ 32 0#32),
    StableHlo.unary main_c_10 main_v48 (broadcastInDim S600000 ![] bcast_S_S600000 : (⟨S_, .i32⟩ : BufTy).Contents (Elt F) → (⟨S600000, .i32⟩ : BufTy).Contents (Elt F)),
    StableHlo.binary main_v1 main_v48 main_v49 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 100000#32),
    StableHlo.unary main_c_11 main_v50 (broadcastInDim S600000 ![] bcast_S_S600000 : (⟨S_, .i32⟩ : BufTy).Contents (Elt F) → (⟨S600000, .i32⟩ : BufTy).Contents (Elt F)),
    StableHlo.binary main_v1 main_v50 main_v51 (addi : (⟨S600000, .i32⟩ : BufTy).Contents (Elt F) → (⟨S600000, .i32⟩ : BufTy).Contents (Elt F) → (⟨S600000, .i32⟩ : BufTy).Contents (Elt F)),
    StableHlo.ternary main_v49 main_v51 main_v1 main_v52 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v52 main_v53 (broadcastInDim S600000x1 ![0] bcast_S600000_S600000x1_0 : (⟨S600000, .i32⟩ : BufTy).Contents (Elt F) → (⟨S600000x1, .i32⟩ : BufTy).Contents (Elt F)),
    StableHlo.binary main_v47 main_v53 main_v54 ((fun x i => Host.gather gather_S100000x256_S600000x1_S600000x256_1_0_n_n_0_1_1256 x i) : (⟨S100000x256, .f32⟩ : BufTy).Contents (Elt F) → (⟨S600000x1, .i32⟩ : BufTy).Contents (Elt F) → (⟨S600000x256, .f32⟩ : BufTy).Contents (Elt F)),
    StableHlo.unary main_v28 main_v55 (broadcastInDim S600000x1 ![0] bcast_S600000_S600000x1_0 : (⟨S600000, .f32⟩ : BufTy).Contents (Elt F) → (⟨S600000x1, .f32⟩ : BufTy).Contents (Elt F)),
    StableHlo.unary main_v55 main_v56 (broadcastInDim S600000x256 ![0, 1] bcast_S600000x1_S600000x256_0_1 : (⟨S600000x1, .f32⟩ : BufTy).Contents (Elt F) → (⟨S600000x256, .f32⟩ : BufTy).Contents (Elt F)),
    StableHlo.binary main_v54 main_v56 main_v57 (mulf : (⟨S600000x256, .f32⟩ : BufTy).Contents (Elt F) → (⟨S600000x256, .f32⟩ : BufTy).Contents (Elt F) → (⟨S600000x256, .f32⟩ : BufTy).Contents (Elt F)),
    StableHlo.nullary main_cst_12 (constant S_ .f32 0x00000000#32),
    StableHlo.unary main_cst_12 main_v58 (broadcastInDim S100000x256 ![] bcast_S_S100000x256 : (⟨S_, .f32⟩ : BufTy).Contents (Elt F) → (⟨S100000x256, .f32⟩ : BufTy).Contents (Elt F)),
    StableHlo.unary main_v3 main_v59 (broadcastInDim S600000x1 ![0] bcast_S600000_S600000x1_0 : (⟨S600000, .i32⟩ : BufTy).Contents (Elt F) → (⟨S600000x1, .i32⟩ : BufTy).Contents (Elt F)),
    StableHlo.ternary main_v58 main_v59 main_v57 main_v60 ((fun x i u => Host.scatterAdd scatter_S100000x256_S600000x1_S600000x256_1_0_0_1 x i u) : (⟨S100000x256, .f32⟩ : BufTy).Contents (Elt F) → (⟨S600000x1, .i32⟩ : BufTy).Contents (Elt F) → (⟨S600000x256, .f32⟩ : BufTy).Contents (Elt F) → (⟨S100000x256, .f32⟩ : BufTy).Contents (Elt F)),
    StableHlo.unary main_arg5 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S100000x256 ![0, 1] bcast_S1x256_S100000x256_0_1 : (⟨S1x256, .f32⟩ : BufTy).Contents (Elt F) → (⟨S100000x256, .f32⟩ : BufTy).Contents (Elt F)),
    StableHlo.binary main_v60 main_v62 main_v63 (addf : (⟨S100000x256, .f32⟩ : BufTy).Contents (Elt F) → (⟨S100000x256, .f32⟩ : BufTy).Contents (Elt F) → (⟨S100000x256, .f32⟩ : BufTy).Contents (Elt F)),
    StableHlo.TRef.nullary main_call2.cst (constant S_ .f32 0x00000000#32),
    StableHlo.TRef.unary main_call2.cst main_call2.v0 (broadcastInDim S100000x256 ![] bcast_S_S100000x256),
    StableHlo.TRef.binary (.of main_v63) main_call2.v0 main_call2.v1 (cmpf .ogt),
    StableHlo.TRef.nullary main_call2.cst_0 (constant S_ .f32 0x00000000#32),
    StableHlo.TRef.unary main_call2.cst_0 main_call2.v2 (broadcastInDim S100000x256 ![] bcast_S_S100000x256),
    StableHlo.TRef.binary (.of main_v63) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x256 ![] bcast_S_S100000x256),
    StableHlo.TRef.ternary main_call2.v3 main_call2.call0.v1 (.of main_v63) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x256 ![] bcast_S_S100000x256),
    StableHlo.TRef.binary main_call2.v6 main_call2.v5 main_call2.v7 mulf,
    StableHlo.TRef.ternary main_call2.v1 (.of main_v63) main_call2.v7 main_call2.call1.v0 select ]
/-- Each touches TensorCore references only. -/
theorem ops2_sub : (ops2 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩

/-- Layer 3. -/
abbrev ops3 : List (HloOp τ sig (Elt F)) :=
  [ StableHlo.binary main_v64 main_arg6 main_v65 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.nullary main_c_13 (constantI S_ 32 0#32),
    StableHlo.unary main_c_13 main_v66 (broadcastInDim S600000 ![] bcast_S_S600000 : (⟨S_, .i32⟩ : BufTy).Contents (Elt F) → (⟨S600000, .i32⟩ : BufTy).Contents (Elt F)),
    StableHlo.binary main_v1 main_v66 main_v67 (cmpi .slt : (⟨S600000, .i32⟩ : BufTy).Contents (Elt F) → (⟨S600000, .i32⟩ : BufTy).Contents (Elt F) → (⟨S600000, .i1⟩ : BufTy).Contents (Elt F)),
    StableHlo.nullary main_c_14 (constantI S_ 32 100000#32),
    StableHlo.unary main_c_14 main_v68 (broadcastInDim S600000 ![] bcast_S_S600000 : (⟨S_, .i32⟩ : BufTy).Contents (Elt F) → (⟨S600000, .i32⟩ : BufTy).Contents (Elt F)),
    StableHlo.binary main_v1 main_v68 main_v69 (addi : (⟨S600000, .i32⟩ : BufTy).Contents (Elt F) → (⟨S600000, .i32⟩ : BufTy).Contents (Elt F) → (⟨S600000, .i32⟩ : BufTy).Contents (Elt F)),
    StableHlo.ternary main_v67 main_v69 main_v1 main_v70 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v70 main_v71 (broadcastInDim S600000x1 ![0] bcast_S600000_S600000x1_0 : (⟨S600000, .i32⟩ : BufTy).Contents (Elt F) → (⟨S600000x1, .i32⟩ : BufTy).Contents (Elt F)),
    StableHlo.binary main_v65 main_v71 main_v72 ((fun x i => Host.gather gather_S100000x256_S600000x1_S600000x256_1_0_n_n_0_1_1256 x i) : (⟨S100000x256, .f32⟩ : BufTy).Contents (Elt F) → (⟨S600000x1, .i32⟩ : BufTy).Contents (Elt F) → (⟨S600000x256, .f32⟩ : BufTy).Contents (Elt F)),
    StableHlo.unary main_v28 main_v73 (broadcastInDim S600000x1 ![0] bcast_S600000_S600000x1_0 : (⟨S600000, .f32⟩ : BufTy).Contents (Elt F) → (⟨S600000x1, .f32⟩ : BufTy).Contents (Elt F)),
    StableHlo.unary main_v73 main_v74 (broadcastInDim S600000x256 ![0, 1] bcast_S600000x1_S600000x256_0_1 : (⟨S600000x1, .f32⟩ : BufTy).Contents (Elt F) → (⟨S600000x256, .f32⟩ : BufTy).Contents (Elt F)),
    StableHlo.binary main_v72 main_v74 main_v75 (mulf : (⟨S600000x256, .f32⟩ : BufTy).Contents (Elt F) → (⟨S600000x256, .f32⟩ : BufTy).Contents (Elt F) → (⟨S600000x256, .f32⟩ : BufTy).Contents (Elt F)),
    StableHlo.nullary main_cst_15 (constant S_ .f32 0x00000000#32),
    StableHlo.unary main_cst_15 main_v76 (broadcastInDim S100000x256 ![] bcast_S_S100000x256 : (⟨S_, .f32⟩ : BufTy).Contents (Elt F) → (⟨S100000x256, .f32⟩ : BufTy).Contents (Elt F)),
    StableHlo.unary main_v3 main_v77 (broadcastInDim S600000x1 ![0] bcast_S600000_S600000x1_0 : (⟨S600000, .i32⟩ : BufTy).Contents (Elt F) → (⟨S600000x1, .i32⟩ : BufTy).Contents (Elt F)),
    StableHlo.ternary main_v76 main_v77 main_v75 main_v78 ((fun x i u => Host.scatterAdd scatter_S100000x256_S600000x1_S600000x256_1_0_0_1 x i u) : (⟨S100000x256, .f32⟩ : BufTy).Contents (Elt F) → (⟨S600000x1, .i32⟩ : BufTy).Contents (Elt F) → (⟨S600000x256, .f32⟩ : BufTy).Contents (Elt F) → (⟨S100000x256, .f32⟩ : BufTy).Contents (Elt F)),
    StableHlo.unary main_arg7 main_v79 (broadcastInDim S1x256 ![1] bcast_S256_S1x256_1 : (⟨S256, .f32⟩ : BufTy).Contents (Elt F) → (⟨S1x256, .f32⟩ : BufTy).Contents (Elt F)),
    StableHlo.unary main_v79 main_v80 (broadcastInDim S100000x256 ![0, 1] bcast_S1x256_S100000x256_0_1 : (⟨S1x256, .f32⟩ : BufTy).Contents (Elt F) → (⟨S100000x256, .f32⟩ : BufTy).Contents (Elt F)),
    StableHlo.binary main_v78 main_v80 main_v81 (addf : (⟨S100000x256, .f32⟩ : BufTy).Contents (Elt F) → (⟨S100000x256, .f32⟩ : BufTy).Contents (Elt F) → (⟨S100000x256, .f32⟩ : BufTy).Contents (Elt F)),
    StableHlo.TRef.nullary main_call3.cst (constant S_ .f32 0x00000000#32),
    StableHlo.TRef.unary main_call3.cst main_call3.v0 (broadcastInDim S100000x256 ![] bcast_S_S100000x256),
    StableHlo.TRef.binary (.of main_v81) main_call3.v0 main_call3.v1 (cmpf .ogt),
    StableHlo.TRef.nullary main_call3.cst_0 (constant S_ .f32 0x00000000#32),
    StableHlo.TRef.unary main_call3.cst_0 main_call3.v2 (broadcastInDim S100000x256 ![] bcast_S_S100000x256),
    StableHlo.TRef.binary (.of main_v81) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x256 ![] bcast_S_S100000x256),
    StableHlo.TRef.ternary main_call3.v3 main_call3.call0.v1 (.of main_v81) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x256 ![] bcast_S_S100000x256),
    StableHlo.TRef.binary main_call3.v6 main_call3.v5 main_call3.v7 mulf,
    StableHlo.TRef.ternary main_call3.v1 (.of main_v81) main_call3.v7 main_call3.call1.v0 select ]
/-- Each touches TensorCore references only. -/
theorem ops3_sub : (ops3 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩

/-- The source node of every edge: row 0 of the edge list. -/
def src (ei : (⟨S2x600000, .i32⟩ : BufTy).Contents (Elt F)) :
    (⟨S600000, .i32⟩ : BufTy).Contents (Elt F) :=
  let t_v0 : (⟨S1x600000, .i32⟩ : BufTy).Contents (Elt F) := (((extractStridedSlice S1x600000 ![0, 0] · slices_S2x600000_S1x600000_0_0) : (⟨S2x600000, .i32⟩ : BufTy).Contents (Elt F) → (⟨S1x600000, .i32⟩ : BufTy).Contents (Elt F))) ei
  let t_v1 : (⟨S600000, .i32⟩ : BufTy).Contents (Elt F) := shapeCast S600000 t_v0 shapeCasts_S1x600000_S600000
  t_v1

/-- The target node of every edge: row 1 of the edge list. -/
def dst (ei : (⟨S2x600000, .i32⟩ : BufTy).Contents (Elt F)) :
    (⟨S600000, .i32⟩ : BufTy).Contents (Elt F) :=
  let t_v2 : (⟨S1x600000, .i32⟩ : BufTy).Contents (Elt F) := (((extractStridedSlice S1x600000 ![1, 0] · slices_S2x600000_S1x600000_1_0) : (⟨S2x600000, .i32⟩ : BufTy).Contents (Elt F) → (⟨S1x600000, .i32⟩ : BufTy).Contents (Elt F))) ei
  let t_v3 : (⟨S600000, .i32⟩ : BufTy).Contents (Elt F) := shapeCast S600000 t_v2 shapeCasts_S1x600000_S600000
  t_v3

/-- The symmetric normalisation of every edge, from the in-degrees. -/
def nrm (ei : (⟨S2x600000, .i32⟩ : BufTy).Contents (Elt F)) :
    (⟨S600000, .f32⟩ : BufTy).Contents (Elt F) :=
  let t_v0 : (⟨S1x600000, .i32⟩ : BufTy).Contents (Elt F) := (((extractStridedSlice S1x600000 ![0, 0] · slices_S2x600000_S1x600000_0_0) : (⟨S2x600000, .i32⟩ : BufTy).Contents (Elt F) → (⟨S1x600000, .i32⟩ : BufTy).Contents (Elt F))) ei
  let t_v1 : (⟨S600000, .i32⟩ : BufTy).Contents (Elt F) := shapeCast S600000 t_v0 shapeCasts_S1x600000_S600000
  let t_v2 : (⟨S1x600000, .i32⟩ : BufTy).Contents (Elt F) := (((extractStridedSlice S1x600000 ![1, 0] · slices_S2x600000_S1x600000_1_0) : (⟨S2x600000, .i32⟩ : BufTy).Contents (Elt F) → (⟨S1x600000, .i32⟩ : BufTy).Contents (Elt F))) ei
  let t_v3 : (⟨S600000, .i32⟩ : BufTy).Contents (Elt F) := shapeCast S600000 t_v2 shapeCasts_S1x600000_S600000
  let t_cst : (⟨S_, .f32⟩ : BufTy).Contents (Elt F) := (constant S_ .f32 0x3F800000#32)
  let t_v4 : (⟨S600000, .f32⟩ : BufTy).Contents (Elt F) := ((broadcastInDim S600000 ![] bcast_S_S600000 : (⟨S_, .f32⟩ : BufTy).Contents (Elt F) → (⟨S600000, .f32⟩ : BufTy).Contents (Elt F))) t_cst
  let t_cst_0 : (⟨S_, .f32⟩ : BufTy).Contents (Elt F) := (constant S_ .f32 0x00000000#32)
  let t_v5 : (⟨S100000, .f32⟩ : BufTy).Contents (Elt F) := ((broadcastInDim S100000 ![] bcast_S_S100000 : (⟨S_, .f32⟩ : BufTy).Contents (Elt F) → (⟨S100000, .f32⟩ : BufTy).Contents (Elt F))) t_cst_0
  let t_v6 : (⟨S600000x1, .i32⟩ : BufTy).Contents (Elt F) := ((broadcastInDim S600000x1 ![0] bcast_S600000_S600000x1_0 : (⟨S600000, .i32⟩ : BufTy).Contents (Elt F) → (⟨S600000x1, .i32⟩ : BufTy).Contents (Elt F))) t_v3
  let t_v7 : (⟨S100000, .f32⟩ : BufTy).Contents (Elt F) := (((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F))) t_v5 t_v6 t_v4
  let t_cst_1 : (⟨S_, .f32⟩ : BufTy).Contents (Elt F) := (constant S_ .f32 0x00000000#32)
  let t_v8 : (⟨S100000, .f32⟩ : BufTy).Contents (Elt F) := ((broadcastInDim S100000 ![] bcast_S_S100000 : (⟨S_, .f32⟩ : BufTy).Contents (Elt F) → (⟨S100000, .f32⟩ : BufTy).Contents (Elt F))) t_cst_1
  let t_v9 : (⟨S100000, .i1⟩ : BufTy).Contents (Elt F) := ((cmpf .ogt : (⟨S100000, .f32⟩ : BufTy).Contents (Elt F) → (⟨S100000, .f32⟩ : BufTy).Contents (Elt F) → (⟨S100000, .i1⟩ : BufTy).Contents (Elt F))) t_v7 t_v8
  let t_cst_2 : (⟨S_, .f32⟩ : BufTy).Contents (Elt F) := (constant S_ .f32 0x3F800000#32)
  let t_v10 : (⟨S100000, .f32⟩ : BufTy).Contents (Elt F) := ((broadcastInDim S100000 ![] bcast_S_S100000 : (⟨S_, .f32⟩ : BufTy).Contents (Elt F) → (⟨S100000, .f32⟩ : BufTy).Contents (Elt F))) t_cst_2
  let t_v11 : (⟨S100000, .f32⟩ : BufTy).Contents (Elt F) := ((maximumf : (⟨S100000, .f32⟩ : BufTy).Contents (Elt F) → (⟨S100000, .f32⟩ : BufTy).Contents (Elt F) → (⟨S100000, .f32⟩ : BufTy).Contents (Elt F))) t_v7 t_v10
  let t_v12 : (⟨S100000, .f32⟩ : BufTy).Contents (Elt F) := ((Host.rsqrt : (⟨S100000, .f32⟩ : BufTy).Contents (Elt F) → (⟨S100000, .f32⟩ : BufTy).Contents (Elt F))) t_v11
  let t_cst_3 : (⟨S_, .f32⟩ : BufTy).Contents (Elt F) := (constant S_ .f32 0x00000000#32)
  let t_call0_v0 : (⟨S_, .f32⟩ : BufTy).Contents (Elt F) := (id) t_cst_3
  let t_call0_v1 : (⟨S100000, .f32⟩ : BufTy).Contents (Elt F) := ((broadcastInDim S100000 ![] bcast_S_S100000)) t_call0_v0
  let t_v13 : (⟨S100000, .f32⟩ : BufTy).Contents (Elt F) := (select) t_v9 t_v12 t_call0_v1
  let t_c : (⟨S_, .i32⟩ : BufTy).Contents (Elt F) := (constantI S_ 32 0#32)
  let t_v14 : (⟨S600000, .i32⟩ : BufTy).Contents (Elt F) := ((broadcastInDim S600000 ![] bcast_S_S600000 : (⟨S_, .i32⟩ : BufTy).Contents (Elt F) → (⟨S600000, .i32⟩ : BufTy).Contents (Elt F))) t_c
  let t_v15 : (⟨S600000, .i1⟩ : BufTy).Contents (Elt F) := ((cmpi .slt : (⟨S600000, .i32⟩ : BufTy).Contents (Elt F) → (⟨S600000, .i32⟩ : BufTy).Contents (Elt F) → (⟨S600000, .i1⟩ : BufTy).Contents (Elt F))) t_v1 t_v14
  let t_c_4 : (⟨S_, .i32⟩ : BufTy).Contents (Elt F) := (constantI S_ 32 100000#32)
  let t_v16 : (⟨S600000, .i32⟩ : BufTy).Contents (Elt F) := ((broadcastInDim S600000 ![] bcast_S_S600000 : (⟨S_, .i32⟩ : BufTy).Contents (Elt F) → (⟨S600000, .i32⟩ : BufTy).Contents (Elt F))) t_c_4
  let t_v17 : (⟨S600000, .i32⟩ : BufTy).Contents (Elt F) := ((addi : (⟨S600000, .i32⟩ : BufTy).Contents (Elt F) → (⟨S600000, .i32⟩ : BufTy).Contents (Elt F) → (⟨S600000, .i32⟩ : BufTy).Contents (Elt F))) t_v1 t_v16
  let t_v18 : (⟨S600000, .i32⟩ : BufTy).Contents (Elt F) := ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) t_v15 t_v17 t_v1
  let t_v19 : (⟨S600000x1, .i32⟩ : BufTy).Contents (Elt F) := ((broadcastInDim S600000x1 ![0] bcast_S600000_S600000x1_0 : (⟨S600000, .i32⟩ : BufTy).Contents (Elt F) → (⟨S600000x1, .i32⟩ : BufTy).Contents (Elt F))) t_v18
  let t_v20 : (⟨S600000, .f32⟩ : BufTy).Contents (Elt F) := (((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F))) t_v13 t_v19
  let t_c_5 : (⟨S_, .i32⟩ : BufTy).Contents (Elt F) := (constantI S_ 32 0#32)
  let t_v21 : (⟨S600000, .i32⟩ : BufTy).Contents (Elt F) := ((broadcastInDim S600000 ![] bcast_S_S600000 : (⟨S_, .i32⟩ : BufTy).Contents (Elt F) → (⟨S600000, .i32⟩ : BufTy).Contents (Elt F))) t_c_5
  let t_v22 : (⟨S600000, .i1⟩ : BufTy).Contents (Elt F) := ((cmpi .slt : (⟨S600000, .i32⟩ : BufTy).Contents (Elt F) → (⟨S600000, .i32⟩ : BufTy).Contents (Elt F) → (⟨S600000, .i1⟩ : BufTy).Contents (Elt F))) t_v3 t_v21
  let t_c_6 : (⟨S_, .i32⟩ : BufTy).Contents (Elt F) := (constantI S_ 32 100000#32)
  let t_v23 : (⟨S600000, .i32⟩ : BufTy).Contents (Elt F) := ((broadcastInDim S600000 ![] bcast_S_S600000 : (⟨S_, .i32⟩ : BufTy).Contents (Elt F) → (⟨S600000, .i32⟩ : BufTy).Contents (Elt F))) t_c_6
  let t_v24 : (⟨S600000, .i32⟩ : BufTy).Contents (Elt F) := ((addi : (⟨S600000, .i32⟩ : BufTy).Contents (Elt F) → (⟨S600000, .i32⟩ : BufTy).Contents (Elt F) → (⟨S600000, .i32⟩ : BufTy).Contents (Elt F))) t_v3 t_v23
  let t_v25 : (⟨S600000, .i32⟩ : BufTy).Contents (Elt F) := ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) t_v22 t_v24 t_v3
  let t_v26 : (⟨S600000x1, .i32⟩ : BufTy).Contents (Elt F) := ((broadcastInDim S600000x1 ![0] bcast_S600000_S600000x1_0 : (⟨S600000, .i32⟩ : BufTy).Contents (Elt F) → (⟨S600000x1, .i32⟩ : BufTy).Contents (Elt F))) t_v25
  let t_v27 : (⟨S600000, .f32⟩ : BufTy).Contents (Elt F) := (((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F))) t_v13 t_v26
  let t_v28 : (⟨S600000, .f32⟩ : BufTy).Contents (Elt F) := ((mulf : (⟨S600000, .f32⟩ : BufTy).Contents (Elt F) → (⟨S600000, .f32⟩ : BufTy).Contents (Elt F) → (⟨S600000, .f32⟩ : BufTy).Contents (Elt F))) t_v20 t_v27
  t_v28

/-- One aggregation: gather the projected rows at the edges' sources, scale by the edge's normalisation, add into the targets' rows. -/
def agg (s : (⟨S600000, .i32⟩ : BufTy).Contents (Elt F)) (d : (⟨S600000, .i32⟩ : BufTy).Contents (Elt F)) (n : (⟨S600000, .f32⟩ : BufTy).Contents (Elt F)) (h : (⟨S100000x256, .f32⟩ : BufTy).Contents (Elt F)) :
    (⟨S100000x256, .f32⟩ : BufTy).Contents (Elt F) :=
  let t_c_7 : (⟨S_, .i32⟩ : BufTy).Contents (Elt F) := (constantI S_ 32 0#32)
  let t_v30 : (⟨S600000, .i32⟩ : BufTy).Contents (Elt F) := ((broadcastInDim S600000 ![] bcast_S_S600000 : (⟨S_, .i32⟩ : BufTy).Contents (Elt F) → (⟨S600000, .i32⟩ : BufTy).Contents (Elt F))) t_c_7
  let t_v31 : (⟨S600000, .i1⟩ : BufTy).Contents (Elt F) := ((cmpi .slt : (⟨S600000, .i32⟩ : BufTy).Contents (Elt F) → (⟨S600000, .i32⟩ : BufTy).Contents (Elt F) → (⟨S600000, .i1⟩ : BufTy).Contents (Elt F))) s t_v30
  let t_c_8 : (⟨S_, .i32⟩ : BufTy).Contents (Elt F) := (constantI S_ 32 100000#32)
  let t_v32 : (⟨S600000, .i32⟩ : BufTy).Contents (Elt F) := ((broadcastInDim S600000 ![] bcast_S_S600000 : (⟨S_, .i32⟩ : BufTy).Contents (Elt F) → (⟨S600000, .i32⟩ : BufTy).Contents (Elt F))) t_c_8
  let t_v33 : (⟨S600000, .i32⟩ : BufTy).Contents (Elt F) := ((addi : (⟨S600000, .i32⟩ : BufTy).Contents (Elt F) → (⟨S600000, .i32⟩ : BufTy).Contents (Elt F) → (⟨S600000, .i32⟩ : BufTy).Contents (Elt F))) s t_v32
  let t_v34 : (⟨S600000, .i32⟩ : BufTy).Contents (Elt F) := ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) t_v31 t_v33 s
  let t_v35 : (⟨S600000x1, .i32⟩ : BufTy).Contents (Elt F) := ((broadcastInDim S600000x1 ![0] bcast_S600000_S600000x1_0 : (⟨S600000, .i32⟩ : BufTy).Contents (Elt F) → (⟨S600000x1, .i32⟩ : BufTy).Contents (Elt F))) t_v34
  let t_v36 : (⟨S600000x256, .f32⟩ : BufTy).Contents (Elt F) := (((fun x i => Host.gather gather_S100000x256_S600000x1_S600000x256_1_0_n_n_0_1_1256 x i) : (⟨S100000x256, .f32⟩ : BufTy).Contents (Elt F) → (⟨S600000x1, .i32⟩ : BufTy).Contents (Elt F) → (⟨S600000x256, .f32⟩ : BufTy).Contents (Elt F))) h t_v35
  let t_v37 : (⟨S600000x1, .f32⟩ : BufTy).Contents (Elt F) := ((broadcastInDim S600000x1 ![0] bcast_S600000_S600000x1_0 : (⟨S600000, .f32⟩ : BufTy).Contents (Elt F) → (⟨S600000x1, .f32⟩ : BufTy).Contents (Elt F))) n
  let t_v38 : (⟨S600000x256, .f32⟩ : BufTy).Contents (Elt F) := ((broadcastInDim S600000x256 ![0, 1] bcast_S600000x1_S600000x256_0_1 : (⟨S600000x1, .f32⟩ : BufTy).Contents (Elt F) → (⟨S600000x256, .f32⟩ : BufTy).Contents (Elt F))) t_v37
  let t_v39 : (⟨S600000x256, .f32⟩ : BufTy).Contents (Elt F) := ((mulf : (⟨S600000x256, .f32⟩ : BufTy).Contents (Elt F) → (⟨S600000x256, .f32⟩ : BufTy).Contents (Elt F) → (⟨S600000x256, .f32⟩ : BufTy).Contents (Elt F))) t_v36 t_v38
  let t_cst_9 : (⟨S_, .f32⟩ : BufTy).Contents (Elt F) := (constant S_ .f32 0x00000000#32)
  let t_v40 : (⟨S100000x256, .f32⟩ : BufTy).Contents (Elt F) := ((broadcastInDim S100000x256 ![] bcast_S_S100000x256 : (⟨S_, .f32⟩ : BufTy).Contents (Elt F) → (⟨S100000x256, .f32⟩ : BufTy).Contents (Elt F))) t_cst_9
  let t_v41 : (⟨S600000x1, .i32⟩ : BufTy).Contents (Elt F) := ((broadcastInDim S600000x1 ![0] bcast_S600000_S600000x1_0 : (⟨S600000, .i32⟩ : BufTy).Contents (Elt F) → (⟨S600000x1, .i32⟩ : BufTy).Contents (Elt F))) d
  let t_v42 : (⟨S100000x256, .f32⟩ : BufTy).Contents (Elt F) := (((fun x i u => Host.scatterAdd scatter_S100000x256_S600000x1_S600000x256_1_0_0_1 x i u) : (⟨S100000x256, .f32⟩ : BufTy).Contents (Elt F) → (⟨S600000x1, .i32⟩ : BufTy).Contents (Elt F) → (⟨S600000x256, .f32⟩ : BufTy).Contents (Elt F) → (⟨S100000x256, .f32⟩ : BufTy).Contents (Elt F))) t_v40 t_v41 t_v39
  t_v42

/-- The bias added to every row, then the exponential linear unit as jax spells it. -/
def act (a : (⟨S100000x256, .f32⟩ : BufTy).Contents (Elt F)) (b : (⟨S256, .f32⟩ : BufTy).Contents (Elt F)) :
    (⟨S100000x256, .f32⟩ : BufTy).Contents (Elt F) :=
  let t_v43 : (⟨S1x256, .f32⟩ : BufTy).Contents (Elt F) := ((broadcastInDim S1x256 ![1] bcast_S256_S1x256_1 : (⟨S256, .f32⟩ : BufTy).Contents (Elt F) → (⟨S1x256, .f32⟩ : BufTy).Contents (Elt F))) b
  let t_v44 : (⟨S100000x256, .f32⟩ : BufTy).Contents (Elt F) := ((broadcastInDim S100000x256 ![0, 1] bcast_S1x256_S100000x256_0_1 : (⟨S1x256, .f32⟩ : BufTy).Contents (Elt F) → (⟨S100000x256, .f32⟩ : BufTy).Contents (Elt F))) t_v43
  let t_v45 : (⟨S100000x256, .f32⟩ : BufTy).Contents (Elt F) := ((addf : (⟨S100000x256, .f32⟩ : BufTy).Contents (Elt F) → (⟨S100000x256, .f32⟩ : BufTy).Contents (Elt F) → (⟨S100000x256, .f32⟩ : BufTy).Contents (Elt F))) a t_v44
  let t_call1_cst : (⟨S_, .f32⟩ : BufTy).Contents (Elt F) := (constant S_ .f32 0x00000000#32)
  let t_call1_v0 : (⟨S100000x256, .f32⟩ : BufTy).Contents (Elt F) := ((broadcastInDim S100000x256 ![] bcast_S_S100000x256)) t_call1_cst
  let t_call1_v1 : (⟨S100000x256, .i1⟩ : BufTy).Contents (Elt F) := ((cmpf .ogt)) t_v45 t_call1_v0
  let t_call1_cst_0 : (⟨S_, .f32⟩ : BufTy).Contents (Elt F) := (constant S_ .f32 0x00000000#32)
  let t_call1_v2 : (⟨S100000x256, .f32⟩ : BufTy).Contents (Elt F) := ((broadcastInDim S100000x256 ![] bcast_S_S100000x256)) t_call1_cst_0
  let t_call1_v3 : (⟨S100000x256, .i1⟩ : BufTy).Contents (Elt F) := ((cmpf .ogt)) t_v45 t_call1_v2
  let t_call1_cst_1 : (⟨S_, .f32⟩ : BufTy).Contents (Elt F) := (constant S_ .f32 0x00000000#32)
  let t_call1_call0_v0 : (⟨S_, .f32⟩ : BufTy).Contents (Elt F) := (id) t_call1_cst_1
  let t_call1_call0_v1 : (⟨S100000x256, .f32⟩ : BufTy).Contents (Elt F) := ((broadcastInDim S100000x256 ![] bcast_S_S100000x256)) t_call1_call0_v0
  let t_call1_v4 : (⟨S100000x256, .f32⟩ : BufTy).Contents (Elt F) := (select) t_call1_v3 t_call1_call0_v1 t_v45
  let t_call1_v5 : (⟨S100000x256, .f32⟩ : BufTy).Contents (Elt F) := (Host.expm1) t_call1_v4
  let t_call1_cst_2 : (⟨S_, .f32⟩ : BufTy).Contents (Elt F) := (constant S_ .f32 0x3F800000#32)
  let t_call1_v6 : (⟨S100000x256, .f32⟩ : BufTy).Contents (Elt F) := ((broadcastInDim S100000x256 ![] bcast_S_S100000x256)) t_call1_cst_2
  let t_call1_v7 : (⟨S100000x256, .f32⟩ : BufTy).Contents (Elt F) := (mulf) t_call1_v6 t_call1_v5
  let t_v46 : (⟨S100000x256, .f32⟩ : BufTy).Contents (Elt F) := (select) t_call1_v1 t_v45 t_call1_v7
  t_v46

end Cert.ReferenceIdeal.Tab

end
-- ==== Proof.RRun.lean ====
/-
  The reference's run.

  The reference is a straight line of host operations: the edge rows and the normalisation, then three layers,
  each a whole contraction, the aggregation along the edges, the bias added to every row, and the exponential
  linear unit, which jax outlines as a function that itself calls two selections.  With every call unfolded at its
  call site over the call's own buffers, @main is its four stretches run one after the other; every weakly fair
  execution therefore terminates with each buffer at the operations' fold over the launch contents.
-/
import proofs.«143275_j523986010649_1_alg».proof.Proof.RTab
import Idealize.ShloMosaic.Lib.StableHlo.Run

noncomputable section

namespace Cert.ReferenceIdeal.Val

open Idealize.ShloMosaic Idealize.ShloMosaic.StableHlo Idealize.SL.Sem Cert.ReferenceIdeal Cert.ReferenceIdeal.Facts₀ Cert.ReferenceIdeal.Facts

variable {F : FTy → Type} [FloatOps F]

/-- Running two lines one after the other folds the second over what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The whole line: the edge rows and the normalisation, then the three layers. -/
abbrev ops : List (HloOp τ sig (Elt F)) := Tab.ops0 ++ (Tab.ops1 ++ (Tab.ops2 ++ Tab.ops3))

-- some hundred and fifty binds re-associated: the rewrite under the chain recurses once per statement
set_option maxRecDepth 16384 in
set_option maxHeartbeats 8000000 in
/-- @main is that line: the outlined functions unfolded at their calls and the calls' records at their fields, both
    sides are one chain of host steps once sequencing is re-associated. -/
theorem main_eq (c : Dev nD) : main (F := F) c = seq (ops (F := F)) := by
  simp only [main, main_part0, main_part1, fn_where.body, fn_elu.body, fn_where_0.body, fn_where_1.body, ops, Tab.ops0, Tab.ops1,
    Tab.ops2, Tab.ops3, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: stretch by stretch. -/
theorem ops_sub : (ops (F := F)).Forall fun op => op.bufs ⊆ tcRefs τ sig :=
  List.forall_append.mpr ⟨Tab.ops0_sub, List.forall_append.mpr ⟨Tab.ops1_sub, List.forall_append.mpr ⟨Tab.ops2_sub, Tab.ops3_sub⟩⟩⟩

set_option maxRecDepth 16384 in
/-- No operation allocates a buffer. -/
theorem ops_fresh : (ops (F := F)).Forall fun op => op.fresh = ∅ := by
  simp only [ops, Tab.ops0, Tab.ops1, Tab.ops2, Tab.ops3, List.cons_append, List.nil_append, List.Forall]
  repeat' constructor

/-- Every weakly fair execution of the reference terminates, without a fault, with each TensorCore buffer at the
    operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => (List.forall_iff_forall_mem.mp ops_fresh) op h)

end Cert.ReferenceIdeal.Val

end
-- ==== Proof.RVal.lean ====
/-
  The reference's result as one term of its arguments.

  Each stretch is read at its one live result: the first at the edge rows and the normalisation, each layer at its
  activation — the unit applied to (aggregate of the contraction) + bias.  A stretch writes only its own fresh
  buffers, so what an earlier stretch left (the edge rows, the normalisation, the arguments) is still there when
  a later one reads it; folding the four stretches gives the three layers composed.
-/
import proofs.«143275_j523986010649_1_alg».proof.Proof.RRun

noncomputable section

namespace Cert.ReferenceIdeal.Val

open Idealize.ShloMosaic Idealize.ShloMosaic.StableHlo Idealize.SL.Sem Cert.ReferenceIdeal Cert.ReferenceIdeal.Facts₀ Cert.ReferenceIdeal.Facts

variable {F : FTy → Type} [FloatOps F]

/-! ## What the stretches compute -/

theorem src_eq (V : Valuation τ sig (Elt F)) : after Tab.ops0 V (Proc.devRef .tc main_v1) = Tab.src (V (Proc.devRef .tc main_arg1)) := by
  dsimp only [Tab.ops0]
  after_results_simp
  rfl

theorem dst_eq (V : Valuation τ sig (Elt F)) : after Tab.ops0 V (Proc.devRef .tc main_v3) = Tab.dst (V (Proc.devRef .tc main_arg1)) := by
  dsimp only [Tab.ops0]
  after_results_simp
  rfl

theorem nrm_eq (V : Valuation τ sig (Elt F)) : after Tab.ops0 V (Proc.devRef .tc main_v28) = Tab.nrm (V (Proc.devRef .tc main_arg1)) := by
  dsimp only [Tab.ops0]
  after_results_simp
  rfl

/-- Layer 1: the unit of (the aggregate of x·W1) + b1. -/
theorem layer1_eq (V : Valuation τ sig (Elt F)) :
    after Tab.ops1 V (Proc.devRef .tc main_v46)
      = Tab.act (Tab.agg (V (Proc.devRef .tc main_v1)) (V (Proc.devRef .tc main_v3)) (V (Proc.devRef .tc main_v28))
          (Host.dotGeneral dot_S100000x64_S64x256_S100000x256_1_0_0_1_n_n none (V (Proc.devRef .tc main_arg0)) (V (Proc.devRef .tc main_arg2)))) (V (Proc.devRef .tc main_arg3)) := by
  dsimp only [Tab.ops1]
  after_results_simp
  rfl

/-- Layer 2: the same of layer 1's activation, W2 and b2. -/
theorem layer2_eq (V : Valuation τ sig (Elt F)) :
    after Tab.ops2 V (Proc.devRef .tc main_v64)
      = Tab.act (Tab.agg (V (Proc.devRef .tc main_v1)) (V (Proc.devRef .tc main_v3)) (V (Proc.devRef .tc main_v28))
          (Host.dotGeneral dot_S100000x256_S256x256_S100000x256_1_0_0_1_n_n none (V (Proc.devRef .tc main_v46)) (V (Proc.devRef .tc main_arg4)))) (V (Proc.devRef .tc main_arg5)) := by
  dsimp only [Tab.ops2]
  after_results_simp
  rfl

/-- Layer 3: the same of layer 2's activation, W3 and b3. -/
theorem layer3_eq (V : Valuation τ sig (Elt F)) :
    after Tab.ops3 V (Proc.devRef .tc main_v82)
      = Tab.act (Tab.agg (V (Proc.devRef .tc main_v1)) (V (Proc.devRef .tc main_v3)) (V (Proc.devRef .tc main_v28))
          (Host.dotGeneral dot_S100000x256_S256x256_S100000x256_1_0_0_1_n_n none (V (Proc.devRef .tc main_v64)) (V (Proc.devRef .tc main_arg6)))) (V (Proc.devRef .tc main_arg7)) := by
  dsimp only [Tab.ops3]
  after_results_simp
  rfl

/-! ## What the stretches leave alone -/

/-- A reference none of a stretch's operations writes keeps its contents: every operation's one result reference
    is another reference. -/
local macro "kept_by " ops:ident : tactic => `(tactic|
  exact after_of_forall_not_mem _ _ (List.forall_iff_forall_mem.mp (by
    simp only [$ops:ident, List.Forall, nullary_writes, unary_writes, binary_writes, ternary_writes, quaternary_writes,
      reshape_writes, binaryIndexed_writes, Finset.mem_singleton]
    repeat' apply And.intro
    all_goals exact devRef_ne_of_ne (by decide))))

/-- No stretch writes an argument array. -/
theorem args0 (V : Valuation τ sig (Elt F)) {b : Ref sig .tc}
    (hb : b = main_arg0 ∨ b = main_arg1 ∨ b = main_arg2 ∨ b = main_arg3 ∨ b = main_arg4 ∨ b = main_arg5 ∨ b = main_arg6 ∨ b = main_arg7) :
    after Tab.ops0 V (Proc.devRef .tc b) = V (Proc.devRef .tc b) := by
  rcases hb with rfl | rfl | rfl | rfl | rfl | rfl | rfl | rfl <;> kept_by Tab.ops0
theorem args1 (V : Valuation τ sig (Elt F)) {b : Ref sig .tc}
    (hb : b = main_arg0 ∨ b = main_arg1 ∨ b = main_arg2 ∨ b = main_arg3 ∨ b = main_arg4 ∨ b = main_arg5 ∨ b = main_arg6 ∨ b = main_arg7) :
    after Tab.ops1 V (Proc.devRef .tc b) = V (Proc.devRef .tc b) := by
  rcases hb with rfl | rfl | rfl | rfl | rfl | rfl | rfl | rfl <;> kept_by Tab.ops1
theorem args2 (V : Valuation τ sig (Elt F)) {b : Ref sig .tc}
    (hb : b = main_arg0 ∨ b = main_arg1 ∨ b = main_arg2 ∨ b = main_arg3 ∨ b = main_arg4 ∨ b = main_arg5 ∨ b = main_arg6 ∨ b = main_arg7) :
    after Tab.ops2 V (Proc.devRef .tc b) = V (Proc.devRef .tc b) := by
  rcases hb with rfl | rfl | rfl | rfl | rfl | rfl | rfl | rfl <;> kept_by Tab.ops2
theorem args3 (V : Valuation τ sig (Elt F)) {b : Ref sig .tc}
    (hb : b = main_arg0 ∨ b = main_arg1 ∨ b = main_arg2 ∨ b = main_arg3 ∨ b = main_arg4 ∨ b = main_arg5 ∨ b = main_arg6 ∨ b = main_arg7) :
    after Tab.ops3 V (Proc.devRef .tc b) = V (Proc.devRef .tc b) := by
  rcases hb with rfl | rfl | rfl | rfl | rfl | rfl | rfl | rfl <;> kept_by Tab.ops3

/-- The first two layers write neither the edge rows nor the normalisation. -/
theorem edges1 (V : Valuation τ sig (Elt F)) {b : Ref sig .tc} (hb : b = main_v1 ∨ b = main_v3 ∨ b = main_v28) :
    after Tab.ops1 V (Proc.devRef .tc b) = V (Proc.devRef .tc b) := by
  rcases hb with rfl | rfl | rfl <;> kept_by Tab.ops1
theorem edges2 (V : Valuation τ sig (Elt F)) {b : Ref sig .tc} (hb : b = main_v1 ∨ b = main_v3 ∨ b = main_v28) :
    after Tab.ops2 V (Proc.devRef .tc b) = V (Proc.devRef .tc b) := by
  rcases hb with rfl | rfl | rfl <;> kept_by Tab.ops2

/-- The whole line leaves every argument array as launched. -/
theorem args_kept (V : Valuation τ sig (Elt F)) {b : Ref sig .tc}
    (hb : b = main_arg0 ∨ b = main_arg1 ∨ b = main_arg2 ∨ b = main_arg3 ∨ b = main_arg4 ∨ b = main_arg5 ∨ b = main_arg6 ∨ b = main_arg7) :
    after (ops (F := F)) V (Proc.devRef .tc b) = V (Proc.devRef .tc b) := by
  show after (Tab.ops0 ++ (Tab.ops1 ++ (Tab.ops2 ++ Tab.ops3))) V (Proc.devRef .tc b) = _
  rw [after_append, after_append, after_append, args3 _ hb, args2 _ hb, args1 _ hb, args0 _ hb]

/-! ## The result -/

/-- The three layers composed, as the reference spells them. -/
def net (x : (⟨S100000x64, .f32⟩ : BufTy).Contents (Elt F)) (ei : (⟨S2x600000, .i32⟩ : BufTy).Contents (Elt F))
    (W1 : (⟨S64x256, .f32⟩ : BufTy).Contents (Elt F)) (b1 : (⟨S256, .f32⟩ : BufTy).Contents (Elt F))
    (W2 : (⟨S256x256, .f32⟩ : BufTy).Contents (Elt F)) (b2 : (⟨S256, .f32⟩ : BufTy).Contents (Elt F))
    (W3 : (⟨S256x256, .f32⟩ : BufTy).Contents (Elt F)) (b3 : (⟨S256, .f32⟩ : BufTy).Contents (Elt F)) :
    (⟨S100000x256, .f32⟩ : BufTy).Contents (Elt F) :=
  Tab.act (Tab.agg (Tab.src ei) (Tab.dst ei) (Tab.nrm ei) (Host.dotGeneral dot_S100000x256_S256x256_S100000x256_1_0_0_1_n_n none
    (Tab.act (Tab.agg (Tab.src ei) (Tab.dst ei) (Tab.nrm ei) (Host.dotGeneral dot_S100000x256_S256x256_S100000x256_1_0_0_1_n_n none
      (Tab.act (Tab.agg (Tab.src ei) (Tab.dst ei) (Tab.nrm ei) (Host.dotGeneral dot_S100000x64_S64x256_S100000x256_1_0_0_1_n_n none x W1)) b1)
      W2)) b2)
    W3)) b3

/-- The line's result buffer ends at the three layers composed, of the launch contents of the arguments. -/
theorem result_eq (V : Valuation τ sig (Elt F)) :
    after (ops (F := F)) V (Proc.devRef .tc main_v82)
      = net (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  show after (Tab.ops0 ++ (Tab.ops1 ++ (Tab.ops2 ++ Tab.ops3))) V (Proc.devRef .tc main_v82) = _
  rw [after_append, after_append, after_append]
  -- after the first stretch
  have s0 := src_eq V
  have d0 := dst_eq V
  have n0 := nrm_eq V
  -- after layer 1
  have L1 := layer1_eq (after Tab.ops0 V)
  rw [s0, d0, n0, args0 V (.inl rfl), args0 V (.inr (.inr (.inl rfl))), args0 V (.inr (.inr (.inr (.inl rfl))))] at L1
  have s1 := (edges1 (after Tab.ops0 V) (.inl rfl)).trans s0
  have d1 := (edges1 (after Tab.ops0 V) (.inr (.inl rfl))).trans d0
  have n1 := (edges1 (after Tab.ops0 V) (.inr (.inr rfl))).trans n0
  -- after layer 2
  have L2 := layer2_eq (after Tab.ops1 (after Tab.ops0 V))
  rw [s1, d1, n1, L1,
    (args1 (after Tab.ops0 V) (.inr (.inr (.inr (.inr (.inl rfl)))))).trans (args0 V (.inr (.inr (.inr (.inr (.inl rfl)))))),
    (args1 (after Tab.ops0 V) (.inr (.inr (.inr (.inr (.inr (.inl rfl))))))).trans (args0 V (.inr (.inr (.inr (.inr (.inr (.inl rfl)))))))] at L2
  have s2 := (edges2 (after Tab.ops1 (after Tab.ops0 V)) (.inl rfl)).trans s1
  have d2 := (edges2 (after Tab.ops1 (after Tab.ops0 V)) (.inr (.inl rfl))).trans d1
  have n2 := (edges2 (after Tab.ops1 (after Tab.ops0 V)) (.inr (.inr rfl))).trans n1
  -- layer 3
  rw [layer3_eq, s2, d2, n2, L2,
    (args2 (after Tab.ops1 (after Tab.ops0 V)) (.inr (.inr (.inr (.inr (.inr (.inr (.inl rfl)))))))).trans
      ((args1 (after Tab.ops0 V) (.inr (.inr (.inr (.inr (.inr (.inr (.inl rfl)))))))).trans (args0 V (.inr (.inr (.inr (.inr (.inr (.inr (.inl rfl))))))))),
    (args2 (after Tab.ops1 (after Tab.ops0 V)) (.inr (.inr (.inr (.inr (.inr (.inr (.inr rfl)))))))).trans
      ((args1 (after Tab.ops0 V) (.inr (.inr (.inr (.inr (.inr (.inr (.inr rfl)))))))).trans (args0 V (.inr (.inr (.inr (.inr (.inr (.inr (.inr rfl)))))))))]
  rfl

end Cert.ReferenceIdeal.Val

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.Bridge.lean ====
/-
  The two programs compute one function of their arguments, over the extended reals.

  Both take the same edge rows and normalisation from the edge list and aggregate along the edges by the same
  gather, scaling and scatter-add: those stretches are the same operations in the two programs.  They differ in two
  places per layer.  The projection: row blocks through the matrix unit against one whole contraction — both
  Σ_k h(p, k) · W(k, q).  The activation: v if v > 0 else exp v − 1 against jax's
  where(v > 0, v, 1 · expm1(where(v > 0, 0, v))) — equal for every extended real v, with v = aggregate + bias on both
  sides.  So each layer is one function, and so are three layers composed.
-/
import proofs.«143275_j523986010649_1_alg».proof.Proof.KVal
import proofs.«143275_j523986010649_1_alg».proof.Proof.RVal
import proofs.«143275_j523986010649_1_alg».proof.Proof.LibRowBcast

set_option maxRecDepth 16384

noncomputable section

namespace Cert.Bridge

open Idealize.ShloMosaic Idealize.ShloMosaic.ValueIdx Cert.Gcn

/-- The reference's contractions are plain matrix products. -/
theorem plain64 : LibPlainDot.Plain Cert.ReferenceIdeal.dot_S100000x64_S64x256_S100000x256_1_0_0_1_n_n := ⟨rfl, rfl, rfl, rfl, rfl, rfl⟩
theorem plain256 : LibPlainDot.Plain Cert.ReferenceIdeal.dot_S100000x256_S256x256_S100000x256_1_0_0_1_n_n := ⟨rfl, rfl, rfl, rfl, rfl, rfl⟩

/-! ## The shared stretches are the same functions -/

theorem src_same (ei : (⟨Cert.KernelIdeal.S2x600000, .i32⟩ : BufTy).Contents (Elt Ideal)) : Cert.ReferenceIdeal.Tab.src (F := Ideal) ei = Cert.KernelIdeal.Tab.src (F := Ideal) ei := rfl
theorem dst_same (ei : (⟨Cert.KernelIdeal.S2x600000, .i32⟩ : BufTy).Contents (Elt Ideal)) : Cert.ReferenceIdeal.Tab.dst (F := Ideal) ei = Cert.KernelIdeal.Tab.dst (F := Ideal) ei := rfl
theorem nrm_same (ei : (⟨Cert.KernelIdeal.S2x600000, .i32⟩ : BufTy).Contents (Elt Ideal)) : Cert.ReferenceIdeal.Tab.nrm (F := Ideal) ei = Cert.KernelIdeal.Tab.nrm (F := Ideal) ei := rfl
theorem agg_same (s d : (⟨Cert.KernelIdeal.S600000, .i32⟩ : BufTy).Contents (Elt Ideal)) (n : (⟨Cert.KernelIdeal.S600000, .f32⟩ : BufTy).Contents (Elt Ideal)) (h : (⟨Cert.KernelIdeal.S100000x256, .f32⟩ : BufTy).Contents (Elt Ideal)) :
    Cert.ReferenceIdeal.Tab.agg (F := Ideal) s d n h = Cert.KernelIdeal.Tab.agg (F := Ideal) s d n h := rfl

/-! ## The activation -/

set_option maxHeartbeats 1000000 in
/-- The reference's bias-then-unit is the kernel's: the bias vector spread down the rows reads its entry at the
    column, and jax's spelling of the unit is the other one entry by entry. -/
theorem act_same (a : Cert.KernelIdeal.S100000x256.Idx → EReal) (b : Cert.KernelIdeal.S256.Idx → EReal) :
    Cert.ReferenceIdeal.Tab.act (F := Ideal) a b = eluBias (N := 100000) (D := 256) a b := by
  funext j
  obtain ⟨p, q, rfl⟩ : ∃ (p : Fin 100000) (q : Fin 256), j = ix2 p q := ⟨j 0, j 1, eq_ix2 j⟩
  have hv : addf (F := Ideal) (s := Cert.ReferenceIdeal.S100000x256) (φ := .f32) a
        (broadcastInDim Cert.ReferenceIdeal.S100000x256 ![0, 1] Cert.ReferenceIdeal.Facts₀.bcast_S1x256_S100000x256_0_1
          (broadcastInDim Cert.ReferenceIdeal.S1x256 ![1] Cert.ReferenceIdeal.Facts₀.bcast_S256_S1x256_1 b)) (ix2 p q)
      = a (ix2 p q) + b (ix1 q) := by
    show a (ix2 p q) + _ = _
    rw [LibRowBcast.bcast_vec_rows_apply]
  have h := elu_jax_apply (s := Cert.ReferenceIdeal.S100000x256)
    (addf (F := Ideal) (s := Cert.ReferenceIdeal.S100000x256) (φ := .f32) a
      (broadcastInDim Cert.ReferenceIdeal.S100000x256 ![0, 1] Cert.ReferenceIdeal.Facts₀.bcast_S1x256_S100000x256_0_1
        (broadcastInDim Cert.ReferenceIdeal.S1x256 ![1] Cert.ReferenceIdeal.Facts₀.bcast_S256_S1x256_1 b)))
    Cert.ReferenceIdeal.Facts₀.bcast_S_S100000x256 (ix2 p q)
  rw [hv] at h
  exact h

/-! ## One layer, three layers -/

/-- One layer of the reference is one layer of the kernel program. -/
theorem layer_same {K : Nat} {D : DotDims ⟨2, ![100000, K]⟩ ⟨2, ![K, 256]⟩ ⟨2, ![100000, 256]⟩} (hD : LibPlainDot.Plain D)
    (ei : (⟨Cert.KernelIdeal.S2x600000, .i32⟩ : BufTy).Contents (Elt Ideal)) (h : (⟨2, ![100000, K]⟩ : Shape).Idx → EReal) (W : (⟨2, ![K, 256]⟩ : Shape).Idx → EReal)
    (b : Cert.KernelIdeal.S256.Idx → EReal) :
    Cert.ReferenceIdeal.Tab.act (F := Ideal) (Cert.ReferenceIdeal.Tab.agg (F := Ideal) (Cert.ReferenceIdeal.Tab.src ei) (Cert.ReferenceIdeal.Tab.dst ei) (Cert.ReferenceIdeal.Tab.nrm ei)
        (Host.dotGeneral (F := Ideal) (φ₁ := .f32) (φ₂ := .f32) D none h W)) b
      = Cert.KernelIdeal.Val.layer ei h W b := by
  rw [dotGeneral_eq_mm hD, act_same, agg_same, src_same, dst_same, nrm_same]

/-- The reference's three layers are the kernel program's. -/
theorem net_same (x : Cert.KernelIdeal.S100000x64.Idx → EReal) (ei : (⟨Cert.KernelIdeal.S2x600000, .i32⟩ : BufTy).Contents (Elt Ideal))
    (W1 : Cert.KernelIdeal.S64x256.Idx → EReal) (b1 : Cert.KernelIdeal.S256.Idx → EReal) (W2 : Cert.KernelIdeal.S256x256.Idx → EReal) (b2 : Cert.KernelIdeal.S256.Idx → EReal)
    (W3 : Cert.KernelIdeal.S256x256.Idx → EReal) (b3 : Cert.KernelIdeal.S256.Idx → EReal) :
    Cert.ReferenceIdeal.Val.net (F := Ideal) x ei W1 b1 W2 b2 W3 b3 = Cert.KernelIdeal.Val.net x ei W1 b1 W2 b2 W3 b3 := by
  unfold Cert.ReferenceIdeal.Val.net Cert.KernelIdeal.Val.net
  rw [layer_same plain64, layer_same plain256, layer_same plain256]

end Cert.Bridge

end
-- ==== Proof.lean ====
/-
  A three-layer graph convolution: the tiled kernel program against the plain reference, over the extended reals.

  Each layer projects the node features by a weight matrix, gathers the projected rows at the edges' sources, scales
  them by the edges' symmetric normalisation, adds them into the targets' rows, adds a bias and applies the exponential
  linear unit.  The kernel program runs the projection and the bias-and-unit as tiled regions (twenty row blocks each)
  and everything else on the host; the reference runs everything on the host.

  * The frames of the two kernel programs are the generated launch certificates; the reference's is its run with
    the result dropped.
  * Nothing was rewritten when the kernel program was idealised, so there is nothing to preserve.
  * At the ideal values both programs end with the same array: the edge rows, the normalisation and the aggregation
    are the same host operations in both; a row block's product on the matrix unit is that block of the whole
    contraction; and  v if v > 0 else exp v − 1  is jax's  where(v > 0, v, 1 · expm1(where(v > 0, 0, v)))  for every
    extended real v.  No step uses that the inputs are finite.
-/
import proofs.«143275_j523986010649_1_alg».proof.Defs
import proofs.«143275_j523986010649_1_alg».proof.Proof.Gen.Kernel
import proofs.«143275_j523986010649_1_alg».proof.Proof.Gen.Kernel.Frame
import proofs.«143275_j523986010649_1_alg».proof.Proof.Gen.KernelIdeal
import proofs.«143275_j523986010649_1_alg».proof.Proof.Gen.KernelIdeal.Frame
import proofs.«143275_j523986010649_1_alg».proof.Proof.Gen.ReferenceIdeal
import proofs.«143275_j523986010649_1_alg».proof.Proof.Gen.Pre_finite_inputs
import proofs.«143275_j523986010649_1_alg».proof.Proof.Bridge
import Idealize.ShloMosaic.Adequacy
import Idealize.ShloMosaic.Init

set_option maxRecDepth 16384

noncomputable section

namespace Cert.Proof

open Idealize.ShloMosaic Idealize.ShloMosaic.StableHlo Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves every argument array as launched: no operation writes one. -/
theorem frame_ri : Cert.frame_ReferenceIdeal := fun m ρ _ =>
  (θ_run Cert.ReferenceIdeal.defs _ _).mono (fun r h c =>
    ⟨(h c Cert.ReferenceIdeal.main_arg0).trans (Cert.ReferenceIdeal.Val.args_kept (launchContents m c) (.inl rfl)),
     (h c Cert.ReferenceIdeal.main_arg1).trans (Cert.ReferenceIdeal.Val.args_kept (launchContents m c) (.inr (.inl rfl))),
     (h c Cert.ReferenceIdeal.main_arg2).trans (Cert.ReferenceIdeal.Val.args_kept (launchContents m c) (.inr (.inr (.inl rfl)))),
     (h c Cert.ReferenceIdeal.main_arg3).trans (Cert.ReferenceIdeal.Val.args_kept (launchContents m c) (.inr (.inr (.inr (.inl rfl))))),
     (h c Cert.ReferenceIdeal.main_arg4).trans (Cert.ReferenceIdeal.Val.args_kept (launchContents m c) (.inr (.inr (.inr (.inr (.inl rfl)))))),
     (h c Cert.ReferenceIdeal.main_arg5).trans (Cert.ReferenceIdeal.Val.args_kept (launchContents m c) (.inr (.inr (.inr (.inr (.inr (.inl rfl))))))),
     (h c Cert.ReferenceIdeal.main_arg6).trans (Cert.ReferenceIdeal.Val.args_kept (launchContents m c) (.inr (.inr (.inr (.inr (.inr (.inr (.inl rfl)))))))),
     (h c Cert.ReferenceIdeal.main_arg7).trans (Cert.ReferenceIdeal.Val.args_kept (launchContents m c) (.inr (.inr (.inr (.inr (.inr (.inr (.inr (rfl)))))))))⟩)
    (Cert.ReferenceIdeal.Val.run (F := Ideal) m ρ)

/-- Both programs, from memories agreeing on the arguments, end with the three layers composed of those arguments. -/
theorem algebraic : Cert.algebraic_KernelIdeal_ReferenceIdeal := by
  intro m ρ m' ρ' _ hagree
  refine ⟨fun c => Cert.KernelIdeal.Val.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Val.result m ρ c), (h c).2⟩) (Cert.KernelIdeal.Val.run_result m ρ)
  · refine (θ_run Cert.ReferenceIdeal.defs _ _).mono (fun r h c =>
      ⟨?_,
       (h c Cert.ReferenceIdeal.main_arg0).trans (Cert.ReferenceIdeal.Val.args_kept (launchContents m' c) (.inl rfl)),
       (h c Cert.ReferenceIdeal.main_arg1).trans (Cert.ReferenceIdeal.Val.args_kept (launchContents m' c) (.inr (.inl rfl))),
       (h c Cert.ReferenceIdeal.main_arg2).trans (Cert.ReferenceIdeal.Val.args_kept (launchContents m' c) (.inr (.inr (.inl rfl)))),
       (h c Cert.ReferenceIdeal.main_arg3).trans (Cert.ReferenceIdeal.Val.args_kept (launchContents m' c) (.inr (.inr (.inr (.inl rfl))))),
       (h c Cert.ReferenceIdeal.main_arg4).trans (Cert.ReferenceIdeal.Val.args_kept (launchContents m' c) (.inr (.inr (.inr (.inr (.inl rfl)))))),
       (h c Cert.ReferenceIdeal.main_arg5).trans (Cert.ReferenceIdeal.Val.args_kept (launchContents m' c) (.inr (.inr (.inr (.inr (.inr (.inl rfl))))))),
       (h c Cert.ReferenceIdeal.main_arg6).trans (Cert.ReferenceIdeal.Val.args_kept (launchContents m' c) (.inr (.inr (.inr (.inr (.inr (.inr (.inl rfl)))))))),
       (h c Cert.ReferenceIdeal.main_arg7).trans (Cert.ReferenceIdeal.Val.args_kept (launchContents m' c) (.inr (.inr (.inr (.inr (.inr (.inr (.inr (rfl)))))))))⟩)
      (Cert.ReferenceIdeal.Val.run (F := Ideal) m' ρ')
    refine (h c Cert.ReferenceIdeal.main_v82).trans ((Cert.ReferenceIdeal.Val.result_eq (launchContents m' c)).trans ?_)
    show Cert.ReferenceIdeal.Val.net (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact Cert.Bridge.net_same _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
